-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256x2 : Shape := ⟨3, ![2048, 256, 2]⟩
abbrev S2048x256x2x2 : Shape := ⟨4, ![2048, 256, 2, 2]⟩
abbrev S2x49 : Shape := ⟨2, ![2, 49]⟩
abbrev S49 : Shape := ⟨1, ![49]⟩
abbrev S_ : Shape := ⟨0, ![]⟩

class Facts : Prop where
  bcast_S_S2048x256x2 : S_.BroadcastsInDim S2048x256x2 (![] : Fin 0 → Fin S2048x256x2.rank)
  reducesTo_S2048x256x2_S_d0_1_2 : S2048x256x2.ReducesTo [0, 1, 2] S_
  h_S_ : 0 < S_.numel
  bcast_S_S2048x256x2x2 : S_.BroadcastsInDim S2048x256x2x2 (![] : Fin 0 → Fin S2048x256x2x2.rank)
  reducesTo_S2048x256x2x2_S_d0_1_2_3 : S2048x256x2x2.ReducesTo [0, 1, 2, 3] S_
  bcast_S_S2x49 : S_.BroadcastsInDim S2x49 (![] : Fin 0 → Fin S2x49.rank)
  reducesTo_S2x49_S_d0_1 : S2x49.ReducesTo [0, 1] S_
  bcast_S_S49 : S_.BroadcastsInDim S49 (![] : Fin 0 → Fin S49.rank)
  reducesTo_S49_S_d0 : S49.ReducesTo [0] S_

variable [Facts]

def fn_part1 {F : FTy → Type} [FloatOps F] (main_arg4 : FVec F S2x49 .f32) (main_arg5 : FVec F S49 .f32) (main_v13 : IVec S_ 1) (main_v16 : IVec S2048x256x2 1) : IVec S_ 1 :=
  let main_c_5 : IVec S_ 1 := constantI S_ 1 1#1
  let main_v17 : IVec S_ 1 := (fun x v => Host.reduce IntOp.andi x v reducesTo_S2048x256x2_S_d0_1_2 h_S_) main_v16 main_c_5
  let main_v18 : IVec S_ 1 := andi main_v13 main_v17
  let main_v19 : FVec F S2x49 .f32 := Host.absf main_arg4
  let main_cst_6 : FVec F S_ .f32 := constant S_ .f32 0x7F800000#32
  let main_v20 : FVec F S2x49 .f32 := broadcastInDim S2x49 ![] bcast_S_S2x49 main_cst_6
  let main_v21 : IVec S2x49 1 := cmpf .olt main_v19 main_v20
  let main_c_7 : IVec S_ 1 := constantI S_ 1 1#1
  let main_v22 : IVec S_ 1 := (fun x v => Host.reduce IntOp.andi x v reducesTo_S2x49_S_d0_1 h_S_) main_v21 main_c_7
  let main_v23 : IVec S_ 1 := andi main_v18 main_v22
  let main_v24 : FVec F S49 .f32 := Host.absf main_arg5
  let main_cst_8 : FVec F S_ .f32 := constant S_ .f32 0x7F800000#32
  let main_v25 : FVec F S49 .f32 := broadcastInDim S49 ![] bcast_S_S49 main_cst_8
  let main_v26 : IVec S49 1 := cmpf .olt main_v24 main_v25
  let main_c_9 : IVec S_ 1 := constantI S_ 1 1#1
  let main_v27 : IVec S_ 1 := (fun x v => Host.reduce IntOp.andi x v reducesTo_S49_S_d0 h_S_) main_v26 main_c_9
  let main_v28 : IVec S_ 1 := andi main_v23 main_v27
  main_v28

def fn {F : FTy → Type} [FloatOps F] (main_arg0 : FVec F S2048x256x2 .f32) (main_arg1 : FVec F S2048x256x2x2 .f32) (main_arg2 : FVec F S2048x256x2x2 .f32) (main_arg3 : FVec F S2048x256x2 .f32) (main_arg4 : FVec F S2x49 .f32) (main_arg5 : FVec F S49 .f32) : IVec S_ 1 :=
  let main_v0 : FVec F S2048x256x2 .f32 := Host.absf main_arg0
  let main_cst : FVec F S_ .f32 := constant S_ .f32 0x7F800000#32
  let main_v1 : FVec F S2048x256x2 .f32 := broadcastInDim S2048x256x2 ![] bcast_S_S2048x256x2 main_cst
  let main_v2 : IVec S2048x256x2 1 := cmpf .olt main_v0 main_v1
  let main_c : IVec S_ 1 := constantI S_ 1 1#1
  let main_v3 : IVec S_ 1 := (fun x v => Host.reduce IntOp.andi x v reducesTo_S2048x256x2_S_d0_1_2 h_S_) main_v2 main_c
  let main_v4 : FVec F S2048x256x2x2 .f32 := Host.absf main_arg1
  let main_cst_0 : FVec F S_ .f32 := constant S_ .f32 0x7F800000#32
  let main_v5 : FVec F S2048x256x2x2 .f32 := broadcastInDim S2048x256x2x2 ![] bcast_S_S2048x256x2x2 main_cst_0
  let main_v6 : IVec S2048x256x2x2 1 := cmpf .olt main_v4 main_v5
  let main_c_1 : IVec S_ 1 := constantI S_ 1 1#1
  let main_v7 : IVec S_ 1 := (fun x v => Host.reduce IntOp.andi x v reducesTo_S2048x256x2x2_S_d0_1_2_3 h_S_) main_v6 main_c_1
  let main_v8 : IVec S_ 1 := andi main_v3 main_v7
  let main_v9 : FVec F S2048x256x2x2 .f32 := Host.absf main_arg2
  let main_cst_2 : FVec F S_ .f32 := constant S_ .f32 0x7F800000#32
  let main_v10 : FVec F S2048x256x2x2 .f32 := broadcastInDim S2048x256x2x2 ![] bcast_S_S2048x256x2x2 main_cst_2
  let main_v11 : IVec S2048x256x2x2 1 := cmpf .olt main_v9 main_v10
  let main_c_3 : IVec S_ 1 := constantI S_ 1 1#1
  let main_v12 : IVec S_ 1 := (fun x v => Host.reduce IntOp.andi x v reducesTo_S2048x256x2x2_S_d0_1_2_3 h_S_) main_v11 main_c_3
  let main_v13 : IVec S_ 1 := andi main_v8 main_v12
  let main_v14 : FVec F S2048x256x2 .f32 := Host.absf main_arg3
  let main_cst_4 : FVec F S_ .f32 := constant S_ .f32 0x7F800000#32
  let main_v15 : FVec F S2048x256x2 .f32 := broadcastInDim S2048x256x2 ![] bcast_S_S2048x256x2 main_cst_4
  let main_v16 : IVec S2048x256x2 1 := cmpf .olt main_v14 main_v15
  fn_part1 (F := F) main_arg4 main_arg5 main_v13 main_v16
-- ==== Kernel.lean ====
abbrev S2048x256x2 : Shape := ⟨3, ![2048, 256, 2]⟩
abbrev S2048x256x2x2 : Shape := ⟨4, ![2048, 256, 2, 2]⟩
abbrev S2x49 : Shape := ⟨2, ![2, 49]⟩
abbrev S49 : Shape := ⟨1, ![49]⟩
abbrev S524288x2 : Shape := ⟨2, ![524288, 2]⟩
abbrev S524288x2x2 : Shape := ⟨3, ![524288, 2, 2]⟩
abbrev S1x49 : Shape := ⟨2, ![1, 49]⟩
abbrev S524288x49x2 : Shape := ⟨3, ![524288, 49, 2]⟩
abbrev S524288x1 : Shape := ⟨2, ![524288, 1]⟩
abbrev S512x2 : Shape := ⟨2, ![512, 2]⟩
abbrev S512x2x2 : Shape := ⟨3, ![512, 2, 2]⟩
abbrev S512x49x2 : Shape := ⟨3, ![512, 49, 2]⟩
abbrev S512x1 : Shape := ⟨2, ![512, 1]⟩
abbrev S512 : Shape := ⟨1, ![512]⟩
abbrev S512x1x1 : Shape := ⟨3, ![512, 1, 1]⟩
abbrev S512x49 : Shape := ⟨2, ![512, 49]⟩
abbrev S512x49x1 : Shape := ⟨3, ![512, 49, 1]⟩
abbrev S2048x256x49x2 : Shape := ⟨4, ![2048, 256, 49, 2]⟩
abbrev S2048x256 : Shape := ⟨2, ![2048, 256]⟩

abbrev nBuf : Space → Nat
  | .hbm => 15
  | .vmem => 14
  | .smem => 0
  | _ => 0

abbrev bufTy : (tb : Table) → Fin (tcTables nBuf tb) → BufTy
  | .hbm, ⟨0, _⟩ => ⟨S2048x256x2, .f32⟩
  | .hbm, ⟨1, _⟩ => ⟨S2048x256x2x2, .f32⟩
  | .hbm, ⟨2, _⟩ => ⟨S2048x256x2x2, .f32⟩
  | .hbm, ⟨3, _⟩ => ⟨S2048x256x2, .f32⟩
  | .hbm, ⟨4, _⟩ => ⟨S2x49, .f32⟩
  | .hbm, ⟨5, _⟩ => ⟨S49, .f32⟩
  | .hbm, ⟨6, _⟩ => ⟨S524288x2, .f32⟩
  | .hbm, ⟨7, _⟩ => ⟨S524288x2x2, .f32⟩
  | .hbm, ⟨8, _⟩ => ⟨S524288x2x2, .f32⟩
  | .hbm, ⟨9, _⟩ => ⟨S524288x2, .f32⟩
  | .hbm, ⟨10, _⟩ => ⟨S1x49, .f32⟩
  | .hbm, ⟨11, _⟩ => ⟨S524288x49x2, .f32⟩
  | .hbm, ⟨12, _⟩ => ⟨S524288x1, .f32⟩
  | .hbm, ⟨13, _⟩ => ⟨S2048x256x49x2, .f32⟩
  | .hbm, ⟨14, _⟩ => ⟨S2048x256, .f32⟩
  | .local _ .vmem, ⟨0, _⟩ => ⟨S512x2, .f32⟩
  | .local _ .vmem, ⟨1, _⟩ => ⟨S512x2, .f32⟩
  | .local _ .vmem, ⟨2, _⟩ => ⟨S512x2x2, .f32⟩
  | .local _ .vmem, ⟨3, _⟩ => ⟨S512x2x2, .f32⟩
  | .local _ .vmem, ⟨4, _⟩ => ⟨S512x2x2, .f32⟩
  | .local _ .vmem, ⟨5, _⟩ => ⟨S512x2x2, .f32⟩
  | .local _ .vmem, ⟨6, _⟩ => ⟨S512x2, .f32⟩
  | .local _ .vmem, ⟨7, _⟩ => ⟨S512x2, .f32⟩
  | .local _ .vmem, ⟨8, _⟩ => ⟨S2x49, .f32⟩
  | .local _ .vmem, ⟨9, _⟩ => ⟨S1x49, .f32⟩
  | .local _ .vmem, ⟨10, _⟩ => ⟨S512x49x2, .f32⟩
  | .local _ .vmem, ⟨11, _⟩ => ⟨S512x49x2, .f32⟩
  | .local _ .vmem, ⟨12, _⟩ => ⟨S512x1, .f32⟩
  | .local _ .vmem, ⟨13, _⟩ => ⟨S512x1, .f32⟩
  | _, _ => ⟨S2048x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x49 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x49 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x49x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2048x256x2_S524288x2 : S2048x256x2.ShapeCasts S524288x2
  shapeCasts_S2048x256x2x2_S524288x2x2 : S2048x256x2x2.ShapeCasts S524288x2x2
  shapeCasts_S49_S1x49 : S49.ShapeCasts S1x49
  inb_S512x2_S512x2_0_0 : ∀ a, (![0, 0] : Fin 2 → Nat) a + S512x2.size a ≤ S512x2.size a
  h_S512x2 : 0 < S512x2.numel
  shapeCasts_S512x2_S512x2 : S512x2.ShapeCasts S512x2
  slices_S512x2_o0_0_S512x1 : S512x2.Slices ![0, 0] S512x1
  shapeCasts_S512x1_S512 : S512x1.ShapeCasts S512
  slices_S512x2_o0_1_S512x1 : S512x2.Slices ![0, 1] S512x1
  inb_S512x2x2_S512x2x2_0_0_0 : ∀ a, (![0, 0, 0] : Fin 3 → Nat) a + S512x2x2.size a ≤ S512x2x2.size a
  h_S512x2x2 : 0 < S512x2x2.numel
  shapeCasts_S512x2x2_S512x2x2 : S512x2x2.ShapeCasts S512x2x2
  slices_S512x2x2_o0_0_0_S512x1x1 : S512x2x2.Slices ![0, 0, 0] S512x1x1
  shapeCasts_S512x1x1_S512 : S512x1x1.ShapeCasts S512
  slices_S512x2x2_o0_0_1_S512x1x1 : S512x2x2.Slices ![0, 0, 1] S512x1x1
  slices_S512x2x2_o0_1_0_S512x1x1 : S512x2x2.Slices ![0, 1, 0] S512x1x1
  slices_S512x2x2_o0_1_1_S512x1x1 : S512x2x2.Slices ![0, 1, 1] S512x1x1
  inb_S2x49_S2x49_0_0 : ∀ a, (![0, 0] : Fin 2 → Nat) a + S2x49.size a ≤ S2x49.size a
  h_S2x49 : 0 < S2x49.numel
  slices_S2x49_o0_0_S1x49 : S2x49.Slices ![0, 0] S1x49
  shapeCasts_S1x49_S49 : S1x49.ShapeCasts S49
  slices_S2x49_o1_0_S1x49 : S2x49.Slices ![1, 0] S1x49
  inb_S1x49_S1x49_0_0 : ∀ a, (![0, 0] : Fin 2 → Nat) a + S1x49.size a ≤ S1x49.size a
  h_S1x49 : 0 < S1x49.numel
  shapeCasts_S512_S512x1 : S512.ShapeCasts S512x1
  broadcasts_S512x1_S512x49 : S512x1.Broadcasts S512x49
  broadcasts_S1x49_S512x49 : S1x49.Broadcasts S512x49
  reduces_S512x49_S512 : S512x49.Reduces [1] S512
  shapeCasts_S512x49_S512x49x1 : S512x49.ShapeCasts S512x49x1
  concatenates_S512x49x1_S512x49x1_S512x49x2_d2 : Shape.Concatenates [S512x49x1, S512x49x1] S512x49x2 2
  inb_S512x49x2_S512x49x2_0_0_0 : ∀ a, (![0, 0, 0] : Fin 3 → Nat) a + S512x49x2.size a ≤ S512x49x2.size a
  h_S512x49x2 : 0 < S512x49x2.numel
  inb_S512x1_S512x1_0_0 : ∀ a, (![0, 0] : Fin 2 → Nat) a + S512x1.size a ≤ S512x1.size a
  h_S512x1 : 0 < S512x1.numel
  shapeCasts_S524288x49x2_S2048x256x49x2 : S524288x49x2.ShapeCasts S2048x256x49x2
  shapeCasts_S524288x1_S2048x256 : S524288x1.ShapeCasts S2048x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S524288x2.size a
  hwx0_0 : ∀ i : grid0.Coords, EltTy.bits .f32 = 32 ∨ (Rect.block (s := S524288x2) S512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2x2.size a ≤ S524288x2x2.size a
  hwx0_1 : ∀ i : grid0.Coords, EltTy.bits .f32 = 32 ∨ (Rect.block (s := S524288x2x2) S512x2x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2x2.size a ≤ S524288x2x2.size a
  hwx0_2 : ∀ i : grid0.Coords, EltTy.bits .f32 = 32 ∨ (Rect.block (s := S524288x2x2) S512x2x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2.size a ≤ S524288x2.size a
  hwx0_3 : ∀ i : grid0.Coords, EltTy.bits .f32 = 32 ∨ (Rect.block (s := S524288x2) S512x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x49.size a ≤ S2x49.size a
  hwx0_4 : ∀ i : grid0.Coords, EltTy.bits .f32 = 32 ∨ (Rect.block (s := S2x49) S2x49.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x49.size a ≤ S1x49.size a
  hwx0_5 : ∀ i : grid0.Coords, EltTy.bits .f32 = 32 ∨ (Rect.block (s := S1x49) S1x49.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x49x2.size a ≤ S524288x49x2.size a
  hwx0_6 : ∀ i : grid0.Coords, EltTy.bits .f32 = 32 ∨ (Rect.block (s := S524288x49x2) S512x49x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S524288x1.size a
  hwx0_7 : ∀ i : grid0.Coords, EltTy.bits .f32 = 32 ∨ (Rect.block (s := S524288x1) S512x1.size (cc0_transform_7 i) (hinb0_7 i)).WholeWords (EltTy.packing .f32)

variable [Facts₀]

abbrev win0_0 : Pipeline.Window sig grid0 :=
  Pipeline.Window.ofSpec (Memref.whole main_v0) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x49.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x49.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S512x49x2.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x256x2 : Shape := ⟨3, ![2048, 256, 2]⟩
abbrev S2048x256x2x2 : Shape := ⟨4, ![2048, 256, 2, 2]⟩
abbrev S2x49 : Shape := ⟨2, ![2, 49]⟩
abbrev S49 : Shape := ⟨1, ![49]⟩
abbrev S49x2048x256x2 : Shape := ⟨4, ![49, 2048, 256, 2]⟩
abbrev S2048x256x49x2 : Shape := ⟨4, ![2048, 256, 49, 2]⟩
abbrev S2048x256x1x2 : Shape := ⟨4, ![2048, 256, 1, 2]⟩
abbrev S2048x256x49x1 : Shape := ⟨4, ![2048, 256, 49, 1]⟩
abbrev S2048x256x49 : Shape := ⟨3, ![2048, 256, 49]⟩
abbrev S2048x256x1x1 : Shape := ⟨4, ![2048, 256, 1, 1]⟩
abbrev S2048x256 : Shape := ⟨2, ![2048, 256]⟩
abbrev S2048x256x1 : Shape := ⟨3, ![2048, 256, 1]⟩
abbrev S_ : Shape := ⟨0, ![]⟩
abbrev S1x1x49 : Shape := ⟨3, ![1, 1, 49]⟩

abbrev nBuf : Space → Nat
  | .hbm => 73
  | .vmem => 0
  | .smem => 0
  | _ => 0

abbrev bufTy : (tb : Table) → Fin (tcTables nBuf tb) → BufTy
  | .hbm, ⟨0, _⟩ => ⟨S2048x256x2, .f32⟩
  | .hbm, ⟨1, _⟩ => ⟨S2048x256x2x2, .f32⟩
  | .hbm, ⟨2, _⟩ => ⟨S2048x256x2x2, .f32⟩
  | .hbm, ⟨3, _⟩ => ⟨S2048x256x2, .f32⟩
  | .hbm, ⟨4, _⟩ => ⟨S2x49, .f32⟩
  | .hbm, ⟨5, _⟩ => ⟨S49, .f32⟩
  | .hbm, ⟨6, _⟩ => ⟨S49x2048x256x2, .f32⟩
  | .hbm, ⟨7, _⟩ => ⟨S2048x256x49x2, .f32⟩
  | .hbm, ⟨8, _⟩ => ⟨S2048x256x1x2, .f32⟩
  | .hbm, ⟨9, _⟩ => ⟨S2048x256x49x2, .f32⟩
  | .hbm, ⟨10, _⟩ => ⟨S2048x256x49x2, .f32⟩
  | .hbm, ⟨11, _⟩ => ⟨S2048x256x1x2, .f32⟩
  | .hbm, ⟨12, _⟩ => ⟨S2048x256x49x2, .f32⟩
  | .hbm, ⟨13, _⟩ => ⟨S2048x256x49x2, .f32⟩
  | .hbm, ⟨14, _⟩ => ⟨S2048x256x49x1, .f32⟩
  | .hbm, ⟨15, _⟩ => ⟨S2048x256x49, .f32⟩
  | .hbm, ⟨16, _⟩ => ⟨S2048x256x49x1, .f32⟩
  | .hbm, ⟨17, _⟩ => ⟨S2048x256x49, .f32⟩
  | .hbm, ⟨18, _⟩ => ⟨S2048x256x1x1, .f32⟩
  | .hbm, ⟨19, _⟩ => ⟨S2048x256, .f32⟩
  | .hbm, ⟨20, _⟩ => ⟨S2048x256x1, .f32⟩
  | .hbm, ⟨21, _⟩ => ⟨S2048x256x1x1, .f32⟩
  | .hbm, ⟨22, _⟩ => ⟨S2048x256, .f32⟩
  | .hbm, ⟨23, _⟩ => ⟨S2048x256x1, .f32⟩
  | .hbm, ⟨24, _⟩ => ⟨S2048x256x1x1, .f32⟩
  | .hbm, ⟨25, _⟩ => ⟨S2048x256, .f32⟩
  | .hbm, ⟨26, _⟩ => ⟨S2048x256x1, .f32⟩
  | .hbm, ⟨27, _⟩ => ⟨S2048x256x1x1, .f32⟩
  | .hbm, ⟨28, _⟩ => ⟨S2048x256, .f32⟩
  | .hbm, ⟨29, _⟩ => ⟨S2048x256x1, .f32⟩
  | .hbm, ⟨30, _⟩ => ⟨S2048x256x1, .f32⟩
  | .hbm, ⟨31, _⟩ => ⟨S2048x256x1, .f32⟩
  | .hbm, ⟨32, _⟩ => ⟨S2048x256x1, .f32⟩
  | .hbm, ⟨33, _⟩ => ⟨S2048x256x49, .f32⟩
  | .hbm, ⟨34, _⟩ => ⟨S2048x256x49, .f32⟩
  | .hbm, ⟨35, _⟩ => ⟨S2048x256x49, .f32⟩
  | .hbm, ⟨36, _⟩ => ⟨S2048x256x1, .f32⟩
  | .hbm, ⟨37, _⟩ => ⟨S2048x256x49, .f32⟩
  | .hbm, ⟨38, _⟩ => ⟨S2048x256x49, .f32⟩
  | .hbm, ⟨39, _⟩ => ⟨S2048x256x49, .f32⟩
  | .hbm, ⟨40, _⟩ => ⟨S2048x256x49, .f32⟩
  | .hbm, ⟨41, _⟩ => ⟨S2048x256x49, .f32⟩
  | .hbm, ⟨42, _⟩ => ⟨S2048x256x49, .f32⟩
  | .hbm, ⟨43, _⟩ => ⟨S2048x256x49, .f32⟩
  | .hbm, ⟨44, _⟩ => ⟨S2048x256x49, .f32⟩
  | .hbm, ⟨45, _⟩ => ⟨S2048x256x49, .f32⟩
  | .hbm, ⟨46, _⟩ => ⟨S2048x256x49, .f32⟩
  | .hbm, ⟨47, _⟩ => ⟨S_, .f32⟩
  | .hbm, ⟨48, _⟩ => ⟨S2048x256x49, .f32⟩
  | .hbm, ⟨49, _⟩ => ⟨S2048x256x49, .f32⟩
  | .hbm, ⟨50, _⟩ => ⟨S_, .f32⟩
  | .hbm, ⟨51, _⟩ => ⟨S2048x256x49, .f32⟩
  | .hbm, ⟨52, _⟩ => ⟨S2048x256x49, .f32⟩
  | .hbm, ⟨53, _⟩ => ⟨S2048x256x1, .f32⟩
  | .hbm, ⟨54, _⟩ => ⟨S_, .f32⟩
  | .hbm, ⟨55, _⟩ => ⟨S2048x256x1, .f32⟩
  | .hbm, ⟨56, _⟩ => ⟨S2048x256x1, .f32⟩
  | .hbm, ⟨57, _⟩ => ⟨S2048x256x49, .f32⟩
  | .hbm, ⟨58, _⟩ => ⟨S2048x256x49, .f32⟩
  | .hbm, ⟨59, _⟩ => ⟨S2048x256x49, .f32⟩
  | .hbm, ⟨60, _⟩ => ⟨S1x1x49, .f32⟩
  | .hbm, ⟨61, _⟩ => ⟨S2048x256x49, .f32⟩
  | .hbm, ⟨62, _⟩ => ⟨S2048x256x49, .f32⟩
  | .hbm, ⟨63, _⟩ => ⟨S_, .f32⟩
  | .hbm, ⟨64, _⟩ => ⟨S2048x256, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S2048x256, .f32⟩
  | .hbm, ⟨69, _⟩ => ⟨S2048x256, .f32⟩
  | .hbm, ⟨70, _⟩ => ⟨S_, .f32⟩
  | .hbm, ⟨71, _⟩ => ⟨S2048x256, .f32⟩
  | .hbm, ⟨72, _⟩ => ⟨S2048x256, .f32⟩
  | _, _ => ⟨S2048x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst : Ref sig .tc := ⟨.hbm, 47, rfl⟩
abbrev main_v41 : Ref sig .tc := ⟨.hbm, 48, rfl⟩
abbrev main_v42 : Ref sig .tc := ⟨.hbm, 49, rfl⟩
abbrev main_cst_0 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_1 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_2 : Ref sig .tc := ⟨.hbm, 63, rfl⟩
abbrev main_v54 : Ref sig .tc := ⟨.hbm, 64, rfl⟩
abbrev main_cst_3 : Ref sig .tc := ⟨.hbm, 65, rfl⟩
abbrev main_cst_4 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_v55 : Ref sig .tc := ⟨.hbm, 72, rfl⟩

abbrev nD : Nat := 1
abbrev τ : Topo := Topo.v7x

variable {F : FTy → Type} [FloatOps F]

class Facts₀ : Prop where
  transposes_S49x2048x256x2_S2048x256x49x2_1_2_0_3 : S49x2048x256x2.Transposes [1, 2, 0, 3] S2048x256x49x2
  bcast_S2048x256x2_S2048x256x1x2_0_1_3 : S2048x256x2.BroadcastsInDim S2048x256x1x2 (![0, 1, 3] : Fin 3 → Fin S2048x256x1x2.rank)
  bcast_S2048x256x1x2_S2048x256x49x2_0_1_2_3 : S2048x256x1x2.BroadcastsInDim S2048x256x49x2 (![0, 1, 2, 3] : Fin 4 → Fin S2048x256x49x2.rank)
  slices_S2048x256x49x2_S2048x256x49x1_0_0_0_0 : S2048x256x49x2.Slices ![0, 0, 0, 0] S2048x256x49x1
  shapeCasts_S2048x256x49x1_S2048x256x49 : S2048x256x49x1.ShapeCasts S2048x256x49
  slices_S2048x256x49x2_S2048x256x49x1_0_0_0_1 : S2048x256x49x2.Slices ![0, 0, 0, 1] S2048x256x49x1
  slices_S2048x256x2x2_S2048x256x1x1_0_0_0_0 : S2048x256x2x2.Slices ![0, 0, 0, 0] S2048x256x1x1
  shapeCasts_S2048x256x1x1_S2048x256 : S2048x256x1x1.ShapeCasts S2048x256
  bcast_S2048x256_S2048x256x1_0_1 : S2048x256.BroadcastsInDim S2048x256x1 (![0, 1] : Fin 2 → Fin S2048x256x1.rank)
  slices_S2048x256x2x2_S2048x256x1x1_0_0_0_1 : S2048x256x2x2.Slices ![0, 0, 0, 1] S2048x256x1x1
  slices_S2048x256x2x2_S2048x256x1x1_0_0_1_0 : S2048x256x2x2.Slices ![0, 0, 1, 0] S2048x256x1x1
  slices_S2048x256x2x2_S2048x256x1x1_0_0_1_1 : S2048x256x2x2.Slices ![0, 0, 1, 1] S2048x256x1x1
  bcast_S2048x256x1_S2048x256x49_0_1_2 : S2048x256x1.BroadcastsInDim S2048x256x49 (![0, 1, 2] : Fin 3 → Fin S2048x256x49.rank)
  bcast_S_S2048x256x49 : S_.BroadcastsInDim S2048x256x49 (![] : Fin 0 → Fin S2048x256x49.rank)
  bcast_S_S2048x256x1 : S_.BroadcastsInDim S2048x256x1 (![] : Fin 0 → Fin S2048x256x1.rank)
  bcast_S49_S1x1x49_2 : S49.BroadcastsInDim S1x1x49 (![2] : Fin 1 → Fin S1x1x49.rank)
  bcast_S1x1x49_S2048x256x49_0_1_2 : S1x1x49.BroadcastsInDim S2048x256x49 (![0, 1, 2] : Fin 3 → Fin S2048x256x49.rank)
  reducesTo_S2048x256x49_S2048x256_d2 : S2048x256x49.ReducesTo [2] S2048x256
  h_S_ : 0 < S_.numel
  bcast_S_S2048x256 : S_.BroadcastsInDim S2048x256 (![] : Fin 0 → Fin S2048x256.rank)
  dot_S2x49_S2048x256x2x2_S49x2048x256x2_0_3_1_012_n_n_wf : DotDims.WF S2x49 S2048x256x2x2 S49x2048x256x2 [0] [3] [1] [0, 1, 2] [] []

variable [Facts₀]

def dot_S2x49_S2048x256x2x2_S49x2048x256x2_0_3_1_012_n_n : DotDims S2x49 S2048x256x2x2 S49x2048x256x2 where
  lhsContracting := [0]
  rhsContracting := [3]
  lhsNonContracting := [1]
  rhsNonContracting := [0, 1, 2]
  lhsBatch := []
  rhsBatch := []
  wf := dot_S2x49_S2048x256x2x2_S49x2048x256x2_0_3_1_012_n_n_wf

class Facts : Prop extends Facts₀ where

variable [Facts]
-- ==== Proof.LibIndex.lean ====
/-
  Layout operations read at an index built from coordinates: a column or a one-entry-per-row array as a vector, an
  entry cut out of every row's small matrix, a trailing unit axis added, two arrays with a trailing unit axis joined
  along it, and the reshapes that merge two leading axes into one (row n = b1 * B + b2) or split them again.
-/
import Idealize.ShloMosaic.Lib.Pipeline.Value
import Idealize.ShloMosaic.Lib.ValueIdx

namespace Cert.Layout

open Idealize.ShloMosaic Idealize.ShloMosaic.ValueIdx

variable {α : Type}

/-- An `[a, 1]` column cast to the vector `[a]` reads, at `p`, the column's entry of row `p`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- An `[a, 1, 1]` array cast to the vector `[a]` reads, at `p`, the one entry of row `p`. -/
theorem shapeCast_a11_a_apply {a : ℕ} (x : (⟨3, ![a, 1, 1]⟩ : Shape).Idx → α)
    (h : (⟨3, ![a, 1, 1]⟩ : Shape).ShapeCasts ⟨1, ![a]⟩) (p : Fin a) :
    shapeCast ⟨1, ![a]⟩ x h (ix1 p) = x (ix3 p (0 : Fin 1) (0 : Fin 1)) :=
  shapeCast_apply x h _ _ (by
    rw [Shape.rowMajor_val_three, Shape.rowMajor_val_one]
    show (p.val * 1 + 0) * 1 + 0 = p.val
    omega)

/-- One entry `(k1, k2)` cut out of every row's `[m, n]` matrix: the `[a, 1, 1]` slice at offsets `(0, k1, k2)`
    reads, at row `p`, the source at `(p, k1, k2)`. -/
theorem slice3_entry_apply {a m n : ℕ} (o1 o2 : ℕ) (X : (⟨3, ![a, m, n]⟩ : Shape).Idx → α)
    (h : (⟨3, ![a, m, n]⟩ : Shape).Slices ![0, o1, o2] ⟨3, ![a, 1, 1]⟩)
    (p : Fin a) (u v : Fin 1) (k1 : Fin m) (k2 : Fin n) (h1 : k1.val = o1) (h2 : k2.val = o2) :
    extractStridedSlice ⟨3, ![a, 1, 1]⟩ ![0, o1, o2] X h (ix3 p u v) = X (ix3 p k1 k2) :=
  extractStridedSlice_apply _ _ _ _ _ (fun ax => by
    match ax with
    | ⟨0, _⟩ => exact (Nat.zero_add _).symm
    | ⟨1, _⟩ => show k1.val = o1 + u.val; omega
    | ⟨2, _⟩ => show k2.val = o2 + v.val; omega)

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- Two `[a, b, 1]` arrays joined along the last axis: entry `(p, q, 0)` is the first array's. -/
theorem concatenate_last_pair_apply_zero {a b : ℕ} (x₁ x₂ : (⟨3, ![a, b, 1]⟩ : Shape).Idx → α)
    (h : Shape.Concatenates [(⟨3, ![a, b, 1]⟩ : Shape), (⟨3, ![a, b, 1]⟩ : Shape)] (⟨3, ![a, b, 2]⟩ : Shape) 2)
    (p : Fin a) (q : Fin b) :
    concatenate (⟨3, ![a, b, 2]⟩ : Shape) 2 [⟨(⟨3, ![a, b, 1]⟩ : Shape), x₁⟩, ⟨(⟨3, ![a, b, 1]⟩ : Shape), x₂⟩] h (ix3 p q (0 : Fin 2))
      = x₁ (ix3 p q (0 : Fin 1)) :=
  concatenate_pair_apply_left 2 x₁ x₂ h _ rfl _ (fun ax => by
    match ax with
    | ⟨0, _⟩ => rfl
    | ⟨1, _⟩ => rfl
    | ⟨2, _⟩ => rfl)

/-- Two `[a, b, 1]` arrays joined along the last axis: entry `(p, q, 1)` is the second array's. -/
theorem concatenate_last_pair_apply_one {a b : ℕ} (x₁ x₂ : (⟨3, ![a, b, 1]⟩ : Shape).Idx → α)
    (h : Shape.Concatenates [(⟨3, ![a, b, 1]⟩ : Shape), (⟨3, ![a, b, 1]⟩ : Shape)] (⟨3, ![a, b, 2]⟩ : Shape) 2)
    (p : Fin a) (q : Fin b) :
    concatenate (⟨3, ![a, b, 2]⟩ : Shape) 2 [⟨(⟨3, ![a, b, 1]⟩ : Shape), x₁⟩, ⟨(⟨3, ![a, b, 1]⟩ : Shape), x₂⟩] h (ix3 p q (1 : Fin 2))
      = x₂ (ix3 p q (0 : Fin 1)) :=
  concatenate_pair_apply_right 2 x₁ x₂ h _ rfl rfl _ (fun ax hax => by
    match ax, hax with
    | ⟨0, _⟩, _ => rfl
    | ⟨1, _⟩, _ => rfl
    | ⟨2, _⟩, hax => exact absurd rfl hax) rfl

/-! ## Two leading axes merged into one, and split again -/

/-- `[A, B, c]` reshaped to `[N, c]`: row `n = b1 * B + b2` is the operand's `(b1, b2)`. -/
theorem shapeCast_merge3_apply {A B c N : ℕ} (x : (⟨3, ![A, B, c]⟩ : Shape).Idx → α)
    (h : (⟨3, ![A, B, c]⟩ : Shape).ShapeCasts ⟨2, ![N, c]⟩) (n : Fin N) (b1 : Fin A) (b2 : Fin B) (e : Fin c)
    (hn : n.val = b1.val * B + b2.val) :
    shapeCast ⟨2, ![N, c]⟩ x h (ix2 n e) = x (ix3 b1 b2 e) :=
  shapeCast_apply x h _ _ (by
    rw [Shape.rowMajor_val_three, Shape.rowMajor_val_two]
    show (b1.val * B + b2.val) * c + e.val = n.val * c + e.val
    rw [hn])

/-- `[A, B, c, d]` reshaped to `[N, c, d]`: row `n = b1 * B + b2` is the operand's `(b1, b2)`. -/
theorem shapeCast_merge4_apply {A B c d N : ℕ} (x : (⟨4, ![A, B, c, d]⟩ : Shape).Idx → α)
    (h : (⟨4, ![A, B, c, d]⟩ : Shape).ShapeCasts ⟨3, ![N, c, d]⟩) (n : Fin N) (b1 : Fin A) (b2 : Fin B) (e : Fin c) (f : Fin d)
    (hn : n.val = b1.val * B + b2.val) :
    shapeCast ⟨3, ![N, c, d]⟩ x h (ix3 n e f) = x (ix4 b1 b2 e f) :=
  shapeCast_apply x h _ _ (by
    rw [Shape.rowMajor_val_four, Shape.rowMajor_val_three]
    show ((b1.val * B + b2.val) * c + e.val) * d + f.val = (n.val * c + e.val) * d + f.val
    rw [hn])

/-- `[N, c, d]` reshaped to `[A, B, c, d]`: entry `(b1, b2)` is the operand's row `n = b1 * B + b2`. -/
theorem shapeCast_split3_apply {A B c d N : ℕ} (x : (⟨3, ![N, c, d]⟩ : Shape).Idx → α)
    (h : (⟨3, ![N, c, d]⟩ : Shape).ShapeCasts ⟨4, ![A, B, c, d]⟩) (n : Fin N) (b1 : Fin A) (b2 : Fin B) (e : Fin c) (f : Fin d)
    (hn : n.val = b1.val * B + b2.val) :
    shapeCast ⟨4, ![A, B, c, d]⟩ x h (ix4 b1 b2 e f) = x (ix3 n e f) :=
  shapeCast_apply x h _ _ (by
    rw [Shape.rowMajor_val_four, Shape.rowMajor_val_three]
    show (n.val * c + e.val) * d + f.val = ((b1.val * B + b2.val) * c + e.val) * d + f.val
    rw [hn])

/-- An `[N, 1]` column reshaped to `[A, B]`: entry `(b1, b2)` is the column's row `n = b1 * B + b2`. -/
theorem shapeCast_split_col_apply {A B N : ℕ} (x : (⟨2, ![N, 1]⟩ : Shape).Idx → α)
    (h : (⟨2, ![N, 1]⟩ : Shape).ShapeCasts ⟨2, ![A, B]⟩) (n : Fin N) (b1 : Fin A) (b2 : Fin B)
    (hn : n.val = b1.val * B + b2.val) :
    shapeCast ⟨2, ![A, B]⟩ x h (ix2 b1 b2) = x (ix2 n (0 : Fin 1)) :=
  shapeCast_apply x h _ _ (by
    rw [Shape.rowMajor_val_two, Shape.rowMajor_val_two]
    show n.val * 1 + 0 = b1.val * B + b2.val
    rw [hn, Nat.mul_one, Nat.add_zero])

end Cert.Layout
-- ==== Proof.Spec.lean ====
/-
  The two results as functions of the argument arrays, entry by entry, on the extended reals.

  For one pair (b1, b2): the 2×2 rotation R, the translation t, the mean μ and the 2×2 covariance C of that pair, and
  the 49 quadrature points (e0 q, e1 q) with weights w q. The rotated and translated point q has coordinate i
      g i q = R(i,0) · e0 q + R(i,1) · e1 q + t i,
  and the integral is the weighted sum over q of the normal density at g q, clipped to [0, 1]:
      clip (∑ q, exp (−½ · Q q − log 2π − ½ · log det C) · w q),
      Q q = (C11·dx·dx − (C01 + C10)·dx·dy + C00·dy·dy) / det C,   (dx, dy) = g q − μ,   det C = C00·C11 − C01·C10.
  The three float literals stay as their words; every operation is the exact one on the extended reals.

  The arrays are stated twice: over one row axis of 2048 · 256 = 524288 rows (what a grid of row blocks fills), and over
  the two axes (2048, 256) of the results; row n = b1 · 256 + b2 of the first form is entry (b1, b2) of the second.
-/
import Idealize.ShloMosaic.PureOps.Ideal
import Idealize.ShloMosaic.Lib.ValueIdx
import Idealize.ShloMosaic.Lib.ValueLayout
import proofs.«167904_j49100066128336_2_alg».proof.Proof.LibIndex

noncomputable section

namespace Cert.Spec

open Idealize.ShloMosaic Idealize.ShloMosaic.ValueIdx

/-! ## One entry -/

/-- Coordinate of a rotated and translated point: row `(r0, r1)` of the rotation applied to `(e0, e1)`, plus `t`. -/
def point (r0 r1 t e0 e1 : EReal) : EReal := r0 * e0 + r1 * e1 + t

/-- The determinant of the covariance. -/
def det (c00 c01 c10 c11 : EReal) : EReal := c00 * c11 - c01 * c10

/-- The quadratic form of the inverse covariance at the offset `(dx, dy)`, by the closed-form 2×2 inverse. -/
def quad (c00 c01 c10 c11 dx dy : EReal) : EReal :=
  Ideal.div (c11 * dx * dx - (c01 + c10) * dx * dy + c00 * dy * dy) (det c00 c01 c10 c11)

/-- The weighted density at one quadrature point: `exp (−½ Q − log 2π − ½ log det) · w`. -/
def term (c00 c01 c10 c11 dx dy w : EReal) : EReal :=
  Ideal.exp (Ideal.ofBits .f32 0xBF000000#32 * quad c00 c01 c10 c11 dx dy - Ideal.ofBits .f32 0x3FEB3F8E#32
    - Ideal.ofBits .f32 0x3F000000#32 * Ideal.log (det c00 c01 c10 c11)) * w

/-- Clipping to `[0, 1]`. -/
def clip (s : EReal) : EReal := min (Ideal.ofBits .f32 0x3F800000#32) (max (Ideal.ofBits .f32 0x00000000#32) s)

/-- One pair's integral from its mean, covariance, rotation and translation and the quadrature rule. -/
def rowIntegral (m0 m1 c00 c01 c10 c11 r00 r01 r10 r11 t0 t1 : EReal) (e0 e1 w : Fin 49 → EReal) : EReal :=
  clip (∑ q : Fin 49, term c00 c01 c10 c11 (point r00 r01 t0 (e0 q) (e1 q) - m0) (point r10 r11 t1 (e0 q) (e1 q) - m1) (w q))

/-! ## The arrays over one row axis -/

abbrev SR2 : Shape := ⟨2, ![524288, 2]⟩
abbrev SR22 : Shape := ⟨3, ![524288, 2, 2]⟩
abbrev SR492 : Shape := ⟨3, ![524288, 49, 2]⟩
abbrev SR1 : Shape := ⟨2, ![524288, 1]⟩
abbrev SE : Shape := ⟨2, ![2, 49]⟩
abbrev SW1 : Shape := ⟨2, ![1, 49]⟩
abbrev SW : Shape := ⟨1, ![49]⟩
abbrev SB2 : Shape := ⟨3, ![2048, 256, 2]⟩
abbrev SB22 : Shape := ⟨4, ![2048, 256, 2, 2]⟩
abbrev SB492 : Shape := ⟨4, ![2048, 256, 49, 2]⟩
abbrev SB : Shape := ⟨2, ![2048, 256]⟩

/-- The points of every row: entry `(n, q, i)`. -/
def rowPoints (rot : SR22.Idx → EReal) (tr : SR2.Idx → EReal) (eta : SE.Idx → EReal) : SR492.Idx → EReal :=
  fun j => point (rot (ix3 (j 0) (j 2) (0 : Fin 2))) (rot (ix3 (j 0) (j 2) (1 : Fin 2))) (tr (ix2 (j 0) (j 2)))
    (eta (ix2 (0 : Fin 2) (j 1))) (eta (ix2 (1 : Fin 2) (j 1)))

/-- The integral of every row, as a column: entry `(n, 0)`. -/
def rowIntegrals (mu : SR2.Idx → EReal) (cov rot : SR22.Idx → EReal) (tr : SR2.Idx → EReal) (eta : SE.Idx → EReal)
    (w : SW1.Idx → EReal) : SR1.Idx → EReal :=
  fun j => rowIntegral (mu (ix2 (j 0) (0 : Fin 2))) (mu (ix2 (j 0) (1 : Fin 2)))
    (cov (ix3 (j 0) (0 : Fin 2) (0 : Fin 2))) (cov (ix3 (j 0) (0 : Fin 2) (1 : Fin 2)))
    (cov (ix3 (j 0) (1 : Fin 2) (0 : Fin 2))) (cov (ix3 (j 0) (1 : Fin 2) (1 : Fin 2)))
    (rot (ix3 (j 0) (0 : Fin 2) (0 : Fin 2))) (rot (ix3 (j 0) (0 : Fin 2) (1 : Fin 2)))
    (rot (ix3 (j 0) (1 : Fin 2) (0 : Fin 2))) (rot (ix3 (j 0) (1 : Fin 2) (1 : Fin 2)))
    (tr (ix2 (j 0) (0 : Fin 2))) (tr (ix2 (j 0) (1 : Fin 2)))
    (fun q => eta (ix2 (0 : Fin 2) q)) (fun q => eta (ix2 (1 : Fin 2) q)) (fun q => w (ix2 (0 : Fin 1) q))

/-! ## The results over the two batch axes -/

/-- The first result: entry `(b1, b2, q, i)`. -/
def points (rot : SB22.Idx → EReal) (tr : SB2.Idx → EReal) (eta : SE.Idx → EReal) : SB492.Idx → EReal :=
  fun j => point (rot (ix4 (j 0) (j 1) (j 3) (0 : Fin 2))) (rot (ix4 (j 0) (j 1) (j 3) (1 : Fin 2))) (tr (ix3 (j 0) (j 1) (j 3)))
    (eta (ix2 (0 : Fin 2) (j 2))) (eta (ix2 (1 : Fin 2) (j 2)))

/-- The second result: entry `(b1, b2)`. -/
def integrals (mu : SB2.Idx → EReal) (cov rot : SB22.Idx → EReal) (tr : SB2.Idx → EReal) (eta : SE.Idx → EReal)
    (w : SW.Idx → EReal) : SB.Idx → EReal :=
  fun j => rowIntegral (mu (ix3 (j 0) (j 1) (0 : Fin 2))) (mu (ix3 (j 0) (j 1) (1 : Fin 2)))
    (cov (ix4 (j 0) (j 1) (0 : Fin 2) (0 : Fin 2))) (cov (ix4 (j 0) (j 1) (0 : Fin 2) (1 : Fin 2)))
    (cov (ix4 (j 0) (j 1) (1 : Fin 2) (0 : Fin 2))) (cov (ix4 (j 0) (j 1) (1 : Fin 2) (1 : Fin 2)))
    (rot (ix4 (j 0) (j 1) (0 : Fin 2) (0 : Fin 2))) (rot (ix4 (j 0) (j 1) (0 : Fin 2) (1 : Fin 2)))
    (rot (ix4 (j 0) (j 1) (1 : Fin 2) (0 : Fin 2))) (rot (ix4 (j 0) (j 1) (1 : Fin 2) (1 : Fin 2)))
    (tr (ix3 (j 0) (j 1) (0 : Fin 2))) (tr (ix3 (j 0) (j 1) (1 : Fin 2)))
    (fun q => eta (ix2 (0 : Fin 2) q)) (fun q => eta (ix2 (1 : Fin 2) q)) (fun q => w (ix1 q))

/-! ## Row n = b1 · 256 + b2 of the first form is entry (b1, b2) of the second -/

/-- The row of the pair `(b1, b2)`. -/
def rowOf (b1 : Fin 2048) (b2 : Fin 256) : Fin 524288 :=
  ⟨b1.val * 256 + b2.val, by have := b1.isLt; have := b2.isLt; omega⟩

theorem rowOf_val (b1 : Fin 2048) (b2 : Fin 256) : (rowOf b1 b2).val = b1.val * 256 + b2.val := rfl

/-- The row points of the reshaped arguments, reshaped back, are the first result. -/
theorem points_eq (rot : SB22.Idx → EReal) (tr : SB2.Idx → EReal) (eta : SE.Idx → EReal)
    (h22 : SB22.ShapeCasts SR22) (h2 : SB2.ShapeCasts SR2) (hout : SR492.ShapeCasts SB492) :
    shapeCast SB492 (rowPoints (shapeCast SR22 rot h22) (shapeCast SR2 tr h2) eta) hout = points rot tr eta := by
  funext j
  obtain ⟨b1, b2, q, i, rfl⟩ : ∃ (b1 : Fin 2048) (b2 : Fin 256) (q : Fin 49) (i : Fin 2), j = ix4 b1 b2 q i :=
    ⟨j 0, j 1, j 2, j 3, eq_ix4 j⟩
  refine (Cert.Layout.shapeCast_split3_apply _ hout (rowOf b1 b2) b1 b2 q i (rowOf_val b1 b2)).trans ?_
  show point (shapeCast SR22 rot h22 (ix3 (rowOf b1 b2) i (0 : Fin 2))) (shapeCast SR22 rot h22 (ix3 (rowOf b1 b2) i (1 : Fin 2)))
      (shapeCast SR2 tr h2 (ix2 (rowOf b1 b2) i)) (eta (ix2 (0 : Fin 2) q)) (eta (ix2 (1 : Fin 2) q))
    = point (rot (ix4 b1 b2 i (0 : Fin 2))) (rot (ix4 b1 b2 i (1 : Fin 2))) (tr (ix3 b1 b2 i))
      (eta (ix2 (0 : Fin 2) q)) (eta (ix2 (1 : Fin 2) q))
  rw [Cert.Layout.shapeCast_merge4_apply rot h22 (rowOf b1 b2) b1 b2 i (0 : Fin 2) (rowOf_val b1 b2),
    Cert.Layout.shapeCast_merge4_apply rot h22 (rowOf b1 b2) b1 b2 i (1 : Fin 2) (rowOf_val b1 b2),
    Cert.Layout.shapeCast_merge3_apply tr h2 (rowOf b1 b2) b1 b2 i (rowOf_val b1 b2)]

/-- The row integrals of the reshaped arguments, reshaped back, are the second result. -/
theorem integrals_eq (mu : SB2.Idx → EReal) (cov rot : SB22.Idx → EReal) (tr : SB2.Idx → EReal) (eta : SE.Idx → EReal)
    (w : SW.Idx → EReal)
    (h22 : SB22.ShapeCasts SR22) (h2 : SB2.ShapeCasts SR2) (hw : SW.ShapeCasts SW1) (hout : SR1.ShapeCasts SB) :
    shapeCast SB (rowIntegrals (shapeCast SR2 mu h2) (shapeCast SR22 cov h22) (shapeCast SR22 rot h22) (shapeCast SR2 tr h2) eta
      (shapeCast SW1 w hw)) hout = integrals mu cov rot tr eta w := by
  funext j
  obtain ⟨b1, b2, rfl⟩ : ∃ (b1 : Fin 2048) (b2 : Fin 256), j = ix2 b1 b2 := ⟨j 0, j 1, eq_ix2 j⟩
  refine (Cert.Layout.shapeCast_split_col_apply _ hout (rowOf b1 b2) b1 b2 (rowOf_val b1 b2)).trans ?_
  show rowIntegral (shapeCast SR2 mu h2 (ix2 (rowOf b1 b2) (0 : Fin 2))) (shapeCast SR2 mu h2 (ix2 (rowOf b1 b2) (1 : Fin 2)))
      (shapeCast SR22 cov h22 (ix3 (rowOf b1 b2) (0 : Fin 2) (0 : Fin 2))) (shapeCast SR22 cov h22 (ix3 (rowOf b1 b2) (0 : Fin 2) (1 : Fin 2)))
      (shapeCast SR22 cov h22 (ix3 (rowOf b1 b2) (1 : Fin 2) (0 : Fin 2))) (shapeCast SR22 cov h22 (ix3 (rowOf b1 b2) (1 : Fin 2) (1 : Fin 2)))
      (shapeCast SR22 rot h22 (ix3 (rowOf b1 b2) (0 : Fin 2) (0 : Fin 2))) (shapeCast SR22 rot h22 (ix3 (rowOf b1 b2) (0 : Fin 2) (1 : Fin 2)))
      (shapeCast SR22 rot h22 (ix3 (rowOf b1 b2) (1 : Fin 2) (0 : Fin 2))) (shapeCast SR22 rot h22 (ix3 (rowOf b1 b2) (1 : Fin 2) (1 : Fin 2)))
      (shapeCast SR2 tr h2 (ix2 (rowOf b1 b2) (0 : Fin 2))) (shapeCast SR2 tr h2 (ix2 (rowOf b1 b2) (1 : Fin 2)))
      (fun q => eta (ix2 (0 : Fin 2) q)) (fun q => eta (ix2 (1 : Fin 2) q)) (fun q => shapeCast SW1 w hw (ix2 (0 : Fin 1) q))
    = rowIntegral (mu (ix3 b1 b2 (0 : Fin 2))) (mu (ix3 b1 b2 (1 : Fin 2)))
      (cov (ix4 b1 b2 (0 : Fin 2) (0 : Fin 2))) (cov (ix4 b1 b2 (0 : Fin 2) (1 : Fin 2)))
      (cov (ix4 b1 b2 (1 : Fin 2) (0 : Fin 2))) (cov (ix4 b1 b2 (1 : Fin 2) (1 : Fin 2)))
      (rot (ix4 b1 b2 (0 : Fin 2) (0 : Fin 2))) (rot (ix4 b1 b2 (0 : Fin 2) (1 : Fin 2)))
      (rot (ix4 b1 b2 (1 : Fin 2) (0 : Fin 2))) (rot (ix4 b1 b2 (1 : Fin 2) (1 : Fin 2)))
      (tr (ix3 b1 b2 (0 : Fin 2))) (tr (ix3 b1 b2 (1 : Fin 2)))
      (fun q => eta (ix2 (0 : Fin 2) q)) (fun q => eta (ix2 (1 : Fin 2) q)) (fun q => w (ix1 q))
  have hwq : (fun q : Fin 49 => shapeCast SW1 w hw (ix2 (0 : Fin 1) q)) = fun q => w (ix1 q) :=
    funext fun q => shapeCast_a_1a_apply w hw (0 : Fin 1) q
  rw [hwq,
    Cert.Layout.shapeCast_merge3_apply mu h2 (rowOf b1 b2) b1 b2 (0 : Fin 2) (rowOf_val b1 b2),
    Cert.Layout.shapeCast_merge3_apply mu h2 (rowOf b1 b2) b1 b2 (1 : Fin 2) (rowOf_val b1 b2),
    Cert.Layout.shapeCast_merge4_apply cov h22 (rowOf b1 b2) b1 b2 (0 : Fin 2) (0 : Fin 2) (rowOf_val b1 b2),
    Cert.Layout.shapeCast_merge4_apply cov h22 (rowOf b1 b2) b1 b2 (0 : Fin 2) (1 : Fin 2) (rowOf_val b1 b2),
    Cert.Layout.shapeCast_merge4_apply cov h22 (rowOf b1 b2) b1 b2 (1 : Fin 2) (0 : Fin 2) (rowOf_val b1 b2),
    Cert.Layout.shapeCast_merge4_apply cov h22 (rowOf b1 b2) b1 b2 (1 : Fin 2) (1 : Fin 2) (rowOf_val b1 b2),
    Cert.Layout.shapeCast_merge4_apply rot h22 (rowOf b1 b2) b1 b2 (0 : Fin 2) (0 : Fin 2) (rowOf_val b1 b2),
    Cert.Layout.shapeCast_merge4_apply rot h22 (rowOf b1 b2) b1 b2 (0 : Fin 2) (1 : Fin 2) (rowOf_val b1 b2),
    Cert.Layout.shapeCast_merge4_apply rot h22 (rowOf b1 b2) b1 b2 (1 : Fin 2) (0 : Fin 2) (rowOf_val b1 b2),
    Cert.Layout.shapeCast_merge4_apply rot h22 (rowOf b1 b2) b1 b2 (1 : Fin 2) (1 : Fin 2) (rowOf_val b1 b2),
    Cert.Layout.shapeCast_merge3_apply tr h2 (rowOf b1 b2) b1 b2 (0 : Fin 2) (rowOf_val b1 b2),
    Cert.Layout.shapeCast_merge3_apply tr h2 (rowOf b1 b2) b1 b2 (1 : Fin 2) (rowOf_val b1 b2)]

end Cert.Spec

end
-- ==== Proof.LibLayout.lean ====
/-
  Layout operations of small shapes read at an index built from coordinates: a column [a, 1] broadcast along the
  second axis, and a vector [a] cast to the column [a, 1].
-/
import Idealize.ShloMosaic.Lib.Pipeline.Value
import Idealize.ShloMosaic.Lib.ValueIdx

namespace Cert.Layout

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Layout
-- ==== Proof.LibLaneSum.lean ====
/-
  A lane sum read at an index built from coordinates: the sum along the second axis of a two-axis block, started
  from the float zero, is at row `p` the sum over the lane coordinate of the block's entries in that row.
-/
import Idealize.ShloMosaic.Lib.ValueIdx
import Idealize.ShloMosaic.PureOps.Ideal.Laws

namespace Cert.LaneSum

open Idealize.ShloMosaic Idealize.ShloMosaic.ValueIdx

/-- The sum along the second axis of an `[a, k]` block of exact values, at row `p`: `∑ d, src (p, d)`.  The zero
    accumulator's proof is typed as a printed program carries it (`0 = 0` on the words). -/
theorem laneSum_apply {a k : ℕ} (src : FVec Ideal ⟨2, ![a, k]⟩ .f32)
    (h : (⟨2, ![a, k]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin k, src (ix2 p d) := by
  refine (Ideal.multiReduction_add_single src 0x00000000#32 h hφ hacc (ix1 p)).trans ?_
  exact Finset.sum_congr rfl fun d _ => congrArg src (funext fun ax => by
    match ax with
    | ⟨0, _⟩ => rfl
    | ⟨1, _⟩ => rfl)

end Cert.LaneSum
-- ==== Proof.Body.lean ====
/-
  What the body computes on one block of 512 rows, read entry by entry at the exact instance.

  Each loaded block is cut into per-row vectors (a column of the means and translations, one entry of each row's 2×2
  covariance and rotation) and per-point vectors (the two rows of the quadrature points, the weights); a per-row vector
  is spread along the 49 points as a column, a per-point vector along the 512 rows as a row, and everything between is
  pointwise. So at row p and point q every intermediate is the same scalar expression of the row's twelve numbers and the
  point's three, and the two stored values are: the pair of point coordinates, laid side by side on a last axis of
  length two, and the clipped sum over q of the weighted densities — the specification's `point` and `rowIntegral`.
-/
import proofs.«167904_j49100066128336_2_alg».proof.Proof.Gen.KernelIdeal.Skeleton
import proofs.«167904_j49100066128336_2_alg».proof.Proof.Spec
import proofs.«167904_j49100066128336_2_alg».proof.Proof.LibIndex
import proofs.«167904_j49100066128336_2_alg».proof.Proof.LibLayout
import proofs.«167904_j49100066128336_2_alg».proof.Proof.LibLaneSum
import Idealize.ShloMosaic.Lib.Pipeline.Value
import Idealize.ShloMosaic.Lib.ValueIdx
import Idealize.ShloMosaic.Lib.ValueLayout
import Idealize.ShloMosaic.PureOps.Ideal.Laws

noncomputable section

namespace Cert.Body

open Idealize.ShloMosaic Idealize.ShloMosaic.ValueIdx Cert.KernelIdeal Cert.KernelIdeal.Gen Cert.Layout

/-! ## Congruences of the exact operations -/

theorem mul_congr {a a' b b' : EReal} (h1 : a = a') (h2 : b = b') : a * b = a' * b' := by rw [h1, h2]
theorem add_congr {a a' b b' : EReal} (h1 : a = a') (h2 : b = b') : a + b = a' + b' := by rw [h1, h2]
theorem sub_congr {a a' b b' : EReal} (h1 : a = a') (h2 : b = b') : a - b = a' - b' := by rw [h1, h2]
theorem div_congr {a a' b b' : EReal} (h1 : a = a') (h2 : b = b') : Ideal.div a b = Ideal.div a' b' := by rw [h1, h2]

/-! ## Per-row and per-point vectors spread over the block -/

/-- A per-row vector spread along the points as a column: at `(p, q)` its entry `p`. -/
theorem col_apply (v : FVec Ideal S512 .f32) (p : Fin 512) (q : Fin 49) :
    broadcastTo S512x49 (shapeCast S512x1 v shapeCasts_S512_S512x1) broadcasts_S512x1_S512x49 (ix2 p q) = v (ix1 p) :=
  (broadcastTo_a1_ab_apply _ broadcasts_S512x1_S512x49 p q).trans (shapeCast_a_a1_apply v shapeCasts_S512_S512x1 p (0 : Fin 1))

/-- A per-point vector spread along the rows as a row: at `(p, q)` its entry `q`. -/
theorem row_apply (v : FVec Ideal S49 .f32) (p : Fin 512) (q : Fin 49) :
    broadcastTo S512x49 (shapeCast S1x49 v shapeCasts_S49_S1x49) broadcasts_S1x49_S512x49 (ix2 p q) = v (ix1 q) :=
  (broadcastTo_1b_ab_apply _ broadcasts_S1x49_S512x49 p q).trans (shapeCast_a_1a_apply v shapeCasts_S49_S1x49 (0 : Fin 1) q)

/-- One entry of every row's 2×2 matrix, as a per-row vector. -/
theorem entry_apply (o1 o2 : ℕ) (x : Vec Ideal S512x2x2 .f32) (hs : S512x2x2.Slices ![0, o1, o2] S512x1x1)
    (p : Fin 512) (k1 k2 : Fin 2) (h1 : k1.val = o1) (h2 : k2.val = o2) :
    shapeCast S512 (extractStridedSlice S512x1x1 ![0, o1, o2] (shapeCast S512x2x2 x shapeCasts_S512x2x2_S512x2x2) hs)
      shapeCasts_S512x1x1_S512 (ix1 p) = x (ix3 p k1 k2) := by
  refine (shapeCast_a11_a_apply _ shapeCasts_S512x1x1_S512 p).trans ?_
  refine (slice3_entry_apply o1 o2 _ hs p (0 : Fin 1) (0 : Fin 1) k1 k2 h1 h2).trans ?_
  rw [shapeCast_self]

/-- One column of a two-column block, as a per-row vector. -/
theorem column_apply (o : ℕ) (x : Vec Ideal S512x2 .f32) (hs : S512x2.Slices ![0, o] S512x1)
    (p : Fin 512) (k : Fin 2) (hk : k.val = o) :
    shapeCast S512 (extractStridedSlice S512x1 ![0, o] (shapeCast S512x2 x shapeCasts_S512x2_S512x2) hs)
      shapeCasts_S512x1_S512 (ix1 p) = x (ix2 p k) := by
  refine (shapeCast_a1_a_apply _ shapeCasts_S512x1_S512 p).trans ?_
  refine (slice2_axis1_apply o _ hs p (0 : Fin 1) k (by show k.val = o + 0; omega)).trans ?_
  rw [shapeCast_self]

/-! ## The loaded vectors -/

variable (x0 : Vec Ideal S512x2 .f32) (x1 x2 : Vec Ideal S512x2x2 .f32) (x3 : Vec Ideal S512x2 .f32)
  (x4 : Vec Ideal S2x49 .f32) (x5 : Vec Ideal S1x49 .f32)

theorem pay4_apply (p : Fin 512) : k0_pay4 x0 (ix1 p) = x0 (ix2 p (0 : Fin 2)) := by
  unfold k0_pay4 k0_pay3; exact column_apply 0 x0 slices_S512x2_o0_0_S512x1 p (0 : Fin 2) rfl
theorem pay5_apply (p : Fin 512) : k0_pay5 x0 (ix1 p) = x0 (ix2 p (1 : Fin 2)) := by
  unfold k0_pay5 k0_pay3; exact column_apply 1 x0 slices_S512x2_o0_1_S512x1 p (1 : Fin 2) rfl
theorem pay15_apply (p : Fin 512) : k0_pay15 x3 (ix1 p) = x3 (ix2 p (0 : Fin 2)) := by
  unfold k0_pay15 k0_pay14; exact column_apply 0 x3 slices_S512x2_o0_0_S512x1 p (0 : Fin 2) rfl
theorem pay16_apply (p : Fin 512) : k0_pay16 x3 (ix1 p) = x3 (ix2 p (1 : Fin 2)) := by
  unfold k0_pay16 k0_pay14; exact column_apply 1 x3 slices_S512x2_o0_1_S512x1 p (1 : Fin 2) rfl

theorem pay7_apply (p : Fin 512) : k0_pay7 x1 (ix1 p) = x1 (ix3 p (0 : Fin 2) (0 : Fin 2)) := by
  unfold k0_pay7 k0_pay6; exact entry_apply 0 0 x1 slices_S512x2x2_o0_0_0_S512x1x1 p 0 0 rfl rfl
theorem pay8_apply (p : Fin 512) : k0_pay8 x1 (ix1 p) = x1 (ix3 p (0 : Fin 2) (1 : Fin 2)) := by
  unfold k0_pay8 k0_pay6; exact entry_apply 0 1 x1 slices_S512x2x2_o0_0_1_S512x1x1 p 0 1 rfl rfl
theorem pay9_apply (p : Fin 512) : k0_pay9 x1 (ix1 p) = x1 (ix3 p (1 : Fin 2) (0 : Fin 2)) := by
  unfold k0_pay9 k0_pay6; exact entry_apply 1 0 x1 slices_S512x2x2_o0_1_0_S512x1x1 p 1 0 rfl rfl
theorem pay10_apply (p : Fin 512) : k0_pay10 x1 (ix1 p) = x1 (ix3 p (1 : Fin 2) (1 : Fin 2)) := by
  unfold k0_pay10 k0_pay6; exact entry_apply 1 1 x1 slices_S512x2x2_o0_1_1_S512x1x1 p 1 1 rfl rfl
theorem pay12_apply (p : Fin 512) : k0_pay12 x2 (ix1 p) = x2 (ix3 p (1 : Fin 2) (0 : Fin 2)) := by
  unfold k0_pay12 k0_pay11; exact entry_apply 1 0 x2 slices_S512x2x2_o0_1_0_S512x1x1 p 1 0 rfl rfl
theorem pay13_apply (p : Fin 512) : k0_pay13 x2 (ix1 p) = x2 (ix3 p (1 : Fin 2) (1 : Fin 2)) := by
  unfold k0_pay13 k0_pay11; exact entry_apply 1 1 x2 slices_S512x2x2_o0_1_1_S512x1x1 p 1 1 rfl rfl

theorem pay17_apply (q : Fin 49) : k0_pay17 x4 (ix1 q) = x4 (ix2 (0 : Fin 2) q) := by
  unfold k0_pay17
  refine (shapeCast_1a_a_apply _ shapeCasts_S1x49_S49 q).trans ?_
  exact slice2_axis0_apply 0 x4 slices_S2x49_o0_0_S1x49 (0 : Fin 1) q (0 : Fin 2) rfl
theorem pay18_apply (q : Fin 49) : k0_pay18 x4 (ix1 q) = x4 (ix2 (1 : Fin 2) q) := by
  unfold k0_pay18
  refine (shapeCast_1a_a_apply _ shapeCasts_S1x49_S49 q).trans ?_
  exact slice2_axis0_apply 1 x4 slices_S2x49_o1_0_S1x49 (0 : Fin 1) q (1 : Fin 2) rfl
theorem pay19_apply (q : Fin 49) : k0_pay19 x5 (ix1 q) = x5 (ix2 (0 : Fin 1) q) := by
  unfold k0_pay19; exact shapeCast_1a_a_apply x5 shapeCasts_S1x49_S49 q

/-- The first product of the first point coordinate: `R(0,0) · e0`. -/
theorem pay20_apply (p : Fin 512) (q : Fin 49) :
    k0_pay20 x2 x4 (ix2 p q) = x2 (ix3 p (0 : Fin 2) (0 : Fin 2)) * x4 (ix2 (0 : Fin 2) q) := by
  unfold k0_pay20 k0_pay11
  exact mul_congr ((col_apply _ p q).trans (entry_apply 0 0 x2 slices_S512x2x2_o0_0_0_S512x1x1 p 0 0 rfl rfl))
    ((row_apply _ p q).trans (pay17_apply x4 q))

/-- `R(0,1)` as a column. -/
theorem pay21_apply (p : Fin 512) : k0_pay21 x2 (ix2 p (0 : Fin 1)) = x2 (ix3 p (0 : Fin 2) (1 : Fin 2)) := by
  unfold k0_pay21 k0_pay11
  exact (shapeCast_a_a1_apply _ shapeCasts_S512_S512x1 p (0 : Fin 1)).trans
    (entry_apply 0 1 x2 slices_S512x2x2_o0_0_1_S512x1x1 p 0 1 rfl rfl)

/-! ## The arithmetic -/

theorem pay22_apply (v29 : FVec Ideal S512 .f32) (v36 : FVec Ideal S49 .f32) (v43 : FVec Ideal S512x49 .f32)
    (v44 : FVec Ideal S512x1 .f32) (p : Fin 512) (q : Fin 49) :
    k0_pay22 v29 v36 v43 v44 (ix2 p q) = v43 (ix2 p q) + v44 (ix2 p (0 : Fin 1)) * v36 (ix1 q) + v29 (ix1 p) := by
  unfold k0_pay22
  exact add_congr (add_congr rfl (mul_congr (broadcastTo_a1_ab_apply v44 broadcasts_S512x1_S512x49 p q) (row_apply v36 p q)))
    (col_apply v29 p q)

theorem pay23_apply (v23 v25 v31 : FVec Ideal S512 .f32) (v34 v36 : FVec Ideal S49 .f32) (p : Fin 512) (q : Fin 49) :
    k0_pay23 v23 v25 v31 v34 v36 (ix2 p q)
      = v23 (ix1 p) * v34 (ix1 q) + v25 (ix1 p) * v36 (ix1 q) + v31 (ix1 p) := by
  unfold k0_pay23
  exact add_congr (add_congr (mul_congr (col_apply v23 p q) (row_apply v34 p q)) (mul_congr (col_apply v25 p q) (row_apply v36 p q)))
    (col_apply v31 p q)

theorem pay24_apply (v9 v11 v13 v15 : FVec Ideal S512 .f32) (p : Fin 512) :
    k0_pay24 v9 v11 v13 v15 (ix1 p) = Cert.Spec.det (v9 (ix1 p)) (v11 (ix1 p)) (v13 (ix1 p)) (v15 (ix1 p)) := rfl

/-- The exponent but for the log-determinant: `−½ · Q − log 2π`. -/
theorem pay25_apply (v3 v5 v9 v11 v13 v15 v23 v25 v29 v31 : FVec Ideal S512 .f32) (v34 v36 : FVec Ideal S49 .f32)
    (v43 : FVec Ideal S512x49 .f32) (v44 : FVec Ideal S512x1 .f32) (p : Fin 512) (q : Fin 49) :
    k0_pay25 v3 v5 v9 v11 v13 v15 v23 v25 v29 v31 v34 v36 v43 v44 (ix2 p q)
      = Ideal.ofBits .f32 0xBF000000#32
          * Cert.Spec.quad (v9 (ix1 p)) (v11 (ix1 p)) (v13 (ix1 p)) (v15 (ix1 p))
              (k0_pay22 v29 v36 v43 v44 (ix2 p q) - v3 (ix1 p)) (k0_pay23 v23 v25 v31 v34 v36 (ix2 p q) - v5 (ix1 p))
        - Ideal.ofBits .f32 0x3FEB3F8E#32 := by
  have hdx : subf (k0_pay22 v29 v36 v43 v44) (broadcastTo S512x49 (shapeCast S512x1 v3 shapeCasts_S512_S512x1) broadcasts_S512x1_S512x49) (ix2 p q)
      = k0_pay22 v29 v36 v43 v44 (ix2 p q) - v3 (ix1 p) := sub_congr rfl (col_apply v3 p q)
  have hdy : subf (k0_pay23 v23 v25 v31 v34 v36) (broadcastTo S512x49 (shapeCast S512x1 v5 shapeCasts_S512_S512x1) broadcasts_S512x1_S512x49) (ix2 p q)
      = k0_pay23 v23 v25 v31 v34 v36 (ix2 p q) - v5 (ix1 p) := sub_congr rfl (col_apply v5 p q)
  unfold k0_pay25 Cert.Spec.quad
  exact sub_congr (mul_congr rfl (div_congr
    (add_congr (sub_congr (mul_congr (mul_congr (col_apply v15 p q) hdx) hdx)
        (mul_congr (mul_congr (col_apply (addf v11 v13) p q) hdx) hdy))
      (mul_congr (mul_congr (col_apply v9 p q) hdy) hdy))
    (col_apply (k0_pay24 v9 v11 v13 v15) p q))) rfl

/-- Half the log-determinant, as a column. -/
theorem pay26_apply (v9 v11 v13 v15 : FVec Ideal S512 .f32) (p : Fin 512) :
    k0_pay26 v9 v11 v13 v15 (ix2 p (0 : Fin 1))
      = Ideal.ofBits .f32 0x3F000000#32 * Ideal.log (Cert.Spec.det (v9 (ix1 p)) (v11 (ix1 p)) (v13 (ix1 p)) (v15 (ix1 p))) := by
  unfold k0_pay26
  exact mul_congr rfl (shapeCast_a_a1_apply (log (k0_pay24 v9 v11 v13 v15)) shapeCasts_S512_S512x1 p (0 : Fin 1))

/-- The stored column of integrals: the clipped sum over the points of `exp (exponent − ½ log det) · w`. -/
theorem pay2_apply (v38 : FVec Ideal S49 .f32) (v98 : FVec Ideal S512x49 .f32) (v101 : FVec Ideal S512x1 .f32) (p : Fin 512) :
    k0_pay2 v38 v98 v101 (ix2 p (0 : Fin 1))
      = Cert.Spec.clip (∑ q : Fin 49, Ideal.exp (v98 (ix2 p q) - v101 (ix2 p (0 : Fin 1))) * v38 (ix1 q)) := by
  unfold k0_pay2
  refine (shapeCast_a_a1_apply _ shapeCasts_S512_S512x1 p (0 : Fin 1)).trans ?_
  refine congrArg Cert.Spec.clip ?_
  refine (Cert.LaneSum.laneSum_apply _ reduces_S512x49_S512 (.inl rfl) rfl p).trans ?_
  exact Finset.sum_congr rfl fun q _ =>
    mul_congr (congrArg Ideal.exp (sub_congr rfl (broadcastTo_a1_ab_apply v101 broadcasts_S512x1_S512x49 p q))) (row_apply v38 p q)

/-- The stored pair of point coordinates: the two `[512, 49]` arrays side by side on a last axis of length two. -/
theorem pay1_apply_zero (v52 v66 : FVec Ideal S512x49 .f32) (p : Fin 512) (q : Fin 49) :
    k0_pay1 v52 v66 (ix3 p q (0 : Fin 2)) = v52 (ix2 p q) := by
  unfold k0_pay1
  exact (concatenate_last_pair_apply_zero _ _ concatenates_S512x49x1_S512x49x1_S512x49x2_d2 p q).trans
    (shapeCast_ab_ab1_apply v52 shapeCasts_S512x49_S512x49x1 p q (0 : Fin 1))
theorem pay1_apply_one (v52 v66 : FVec Ideal S512x49 .f32) (p : Fin 512) (q : Fin 49) :
    k0_pay1 v52 v66 (ix3 p q (1 : Fin 2)) = v66 (ix2 p q) := by
  unfold k0_pay1
  exact (concatenate_last_pair_apply_one _ _ concatenates_S512x49x1_S512x49x1_S512x49x2_d2 p q).trans
    (shapeCast_ab_ab1_apply v66 shapeCasts_S512x49_S512x49x1 p q (0 : Fin 1))

/-! ## The two stored blocks against the specification -/

/-- The first point coordinate at row `p`, point `q`. -/
theorem gx_apply (p : Fin 512) (q : Fin 49) :
    k0_pay22 (k0_pay15 x3) (k0_pay18 x4) (k0_pay20 x2 x4) (k0_pay21 x2) (ix2 p q)
      = Cert.Spec.point (x2 (ix3 p (0 : Fin 2) (0 : Fin 2))) (x2 (ix3 p (0 : Fin 2) (1 : Fin 2))) (x3 (ix2 p (0 : Fin 2)))
          (x4 (ix2 (0 : Fin 2) q)) (x4 (ix2 (1 : Fin 2) q)) := by
  rw [pay22_apply, pay20_apply, pay21_apply, pay18_apply, pay15_apply]; rfl

/-- The second point coordinate at row `p`, point `q`. -/
theorem gy_apply (p : Fin 512) (q : Fin 49) :
    k0_pay23 (k0_pay12 x2) (k0_pay13 x2) (k0_pay16 x3) (k0_pay17 x4) (k0_pay18 x4) (ix2 p q)
      = Cert.Spec.point (x2 (ix3 p (1 : Fin 2) (0 : Fin 2))) (x2 (ix3 p (1 : Fin 2) (1 : Fin 2))) (x3 (ix2 p (1 : Fin 2)))
          (x4 (ix2 (0 : Fin 2) q)) (x4 (ix2 (1 : Fin 2) q)) := by
  rw [pay23_apply, pay12_apply, pay13_apply, pay16_apply, pay17_apply, pay18_apply]; rfl

/-- The stored block of points, entry `(p, q, i)`. -/
theorem blockPoints (y : S512x49x2.Idx) :
    k0_pay1 (k0_pay22 (k0_pay15 x3) (k0_pay18 x4) (k0_pay20 x2 x4) (k0_pay21 x2))
        (k0_pay23 (k0_pay12 x2) (k0_pay13 x2) (k0_pay16 x3) (k0_pay17 x4) (k0_pay18 x4)) y
      = Cert.Spec.point (x2 (ix3 (y 0) (y 2) (0 : Fin 2))) (x2 (ix3 (y 0) (y 2) (1 : Fin 2))) (x3 (ix2 (y 0) (y 2)))
          (x4 (ix2 (0 : Fin 2) (y 1))) (x4 (ix2 (1 : Fin 2) (y 1))) := by
  obtain ⟨p, q, i, rfl⟩ : ∃ (p : Fin 512) (q : Fin 49) (i : Fin 2), y = ix3 p q i := ⟨y 0, y 1, y 2, eq_ix3 y⟩
  match i with
  | ⟨0, _⟩ => exact (pay1_apply_zero _ _ p q).trans (gx_apply x2 x3 x4 p q)
  | ⟨1, _⟩ => exact (pay1_apply_one _ _ p q).trans (gy_apply x2 x3 x4 p q)

/-- The stored column of integrals, entry `(p, 0)`. -/
theorem blockIntegrals (y : S512x1.Idx) :
    k0_pay2 (k0_pay19 x5)
        (k0_pay25 (k0_pay4 x0) (k0_pay5 x0) (k0_pay7 x1) (k0_pay8 x1) (k0_pay9 x1) (k0_pay10 x1) (k0_pay12 x2) (k0_pay13 x2)
          (k0_pay15 x3) (k0_pay16 x3) (k0_pay17 x4) (k0_pay18 x4) (k0_pay20 x2 x4) (k0_pay21 x2))
        (k0_pay26 (k0_pay7 x1) (k0_pay8 x1) (k0_pay9 x1) (k0_pay10 x1)) y
      = Cert.Spec.rowIntegral (x0 (ix2 (y 0) (0 : Fin 2))) (x0 (ix2 (y 0) (1 : Fin 2)))
          (x1 (ix3 (y 0) (0 : Fin 2) (0 : Fin 2))) (x1 (ix3 (y 0) (0 : Fin 2) (1 : Fin 2)))
          (x1 (ix3 (y 0) (1 : Fin 2) (0 : Fin 2))) (x1 (ix3 (y 0) (1 : Fin 2) (1 : Fin 2)))
          (x2 (ix3 (y 0) (0 : Fin 2) (0 : Fin 2))) (x2 (ix3 (y 0) (0 : Fin 2) (1 : Fin 2)))
          (x2 (ix3 (y 0) (1 : Fin 2) (0 : Fin 2))) (x2 (ix3 (y 0) (1 : Fin 2) (1 : Fin 2)))
          (x3 (ix2 (y 0) (0 : Fin 2))) (x3 (ix2 (y 0) (1 : Fin 2)))
          (fun q => x4 (ix2 (0 : Fin 2) q)) (fun q => x4 (ix2 (1 : Fin 2) q)) (fun q => x5 (ix2 (0 : Fin 1) q)) := by
  obtain ⟨p, u, rfl⟩ : ∃ (p : Fin 512) (u : Fin 1), y = ix2 p u := ⟨y 0, y 1, eq_ix2 y⟩
  obtain rfl : u = 0 := Subsingleton.elim _ _
  refine (pay2_apply _ _ _ p).trans ?_
  unfold Cert.Spec.rowIntegral
  refine congrArg Cert.Spec.clip (Finset.sum_congr rfl fun q _ => ?_)
  rw [pay25_apply, pay26_apply, gx_apply, gy_apply, pay19_apply, pay4_apply, pay5_apply, pay7_apply, pay8_apply, pay9_apply,
    pay10_apply]
  rfl

end Cert.Body

end
-- ==== Proof.Blocks.lean ====
/-
  From blocks to arrays. The grid has 1024 points; point t works on rows t · 512 … t · 512 + 511 of every per-row array
  (the means, covariances, rotations and translations, and both outputs) and on the whole of the quadrature points and
  weights. So what point t writes back is the block of rows t · 512 … of ONE function of the whole arrays — the
  specification's row form — and since every row n lies in the block of point n / 512, each output array ends as that
  function of the arrays the region was entered with.
-/
import proofs.«167904_j49100066128336_2_alg».proof.Proof.Gen.KernelIdeal.Frame
import proofs.«167904_j49100066128336_2_alg».proof.Proof.Body
import Idealize.ShloMosaic.Lib.Pipeline.Value

noncomputable section

namespace Cert.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

theorem point_lt (t : Fin cfg0.N) : t.val < 1024 := lt_of_lt_of_eq t.isLt N_0

/-- Row `p` of point `t`'s block, as a row of the whole array. -/
def rowAt (t : Fin cfg0.N) (p : Fin 512) : Fin 524288 :=
  ⟨t.val * 512 + p.val, by have := point_lt t; have := p.isLt; omega⟩

theorem rowAt_val (t : Fin cfg0.N) (p : Fin 512) : (rowAt t p).val = t.val * 512 + p.val := rfl

/-- The point whose block holds row `n`. -/
def pointOf (n : Fin 524288) : Fin cfg0.N :=
  ⟨n.val / 512, lt_of_lt_of_eq (by have := n.isLt; omega) N_0.symm⟩

theorem pointOf_val (n : Fin 524288) : (pointOf n).val = n.val / 512 := rfl

/-- The printed index maps, decided over the grid: every per-row window is at block `t` along the rows and at block
    zero along its other axes; the quadrature points and the weights are at block zero. -/
theorem idx_facts : ∀ t : Fin cfg0.N,
    (win0_0.index t (0 : Fin 2) = t.val ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0)
    ∧ (win0_7.index t (0 : Fin 2) = t.val ∧ win0_7.index t (1 : Fin 2) = 0) :=
  (by decide +kernel : ∀ t : Fin grid0.N, _)

/-! ## Each input window's block, as a function of the array the region finds -/

theorem iblk0_eq (c : Dev nD) (t : Fin cfg0.N) :
    iblk m c 0 t = fun (y : S512x2.Idx) => V m c main_v0 (ix2 (rowAt t (y 0)) (y 1)) := by
  funext y
  show V m c main_v0 (((cfg0.win 0).blk t).view.emb y) = _
  refine congrArg (V m c main_v0) (funext fun a => Fin.ext ?_)
  obtain ⟨⟨e0, e1⟩, -⟩ := idx_facts t
  match a with
  | ⟨0, _⟩ => show win0_0.index t (0 : Fin 2) * 512 + 1 * (y 0).val = t.val * 512 + (y 0).val; rw [e0]; omega
  | ⟨1, _⟩ => show win0_0.index t (1 : Fin 2) * 2 + 1 * (y 1).val = (y 1).val; rw [e1]; omega

theorem iblk1_eq (c : Dev nD) (t : Fin cfg0.N) :
    iblk m c 1 t = fun (y : S512x2x2.Idx) => V m c main_v1 (ix3 (rowAt t (y 0)) (y 1) (y 2)) := by
  funext y
  show V m c main_v1 (((cfg0.win 1).blk t).view.emb y) = _
  refine congrArg (V m c main_v1) (funext fun a => Fin.ext ?_)
  obtain ⟨-, ⟨e0, e1, e2⟩, -⟩ := idx_facts t
  match a with
  | ⟨0, _⟩ => show win0_1.index t (0 : Fin 3) * 512 + 1 * (y 0).val = t.val * 512 + (y 0).val; rw [e0]; omega
  | ⟨1, _⟩ => show win0_1.index t (1 : Fin 3) * 2 + 1 * (y 1).val = (y 1).val; rw [e1]; omega
  | ⟨2, _⟩ => show win0_1.index t (2 : Fin 3) * 2 + 1 * (y 2).val = (y 2).val; rw [e2]; omega

theorem iblk2_eq (c : Dev nD) (t : Fin cfg0.N) :
    iblk m c 2 t = fun (y : S512x2x2.Idx) => V m c main_v2 (ix3 (rowAt t (y 0)) (y 1) (y 2)) := by
  funext y
  show V m c main_v2 (((cfg0.win 2).blk t).view.emb y) = _
  refine congrArg (V m c main_v2) (funext fun a => Fin.ext ?_)
  obtain ⟨-, -, ⟨e0, e1, e2⟩, -⟩ := idx_facts t
  match a with
  | ⟨0, _⟩ => show win0_2.index t (0 : Fin 3) * 512 + 1 * (y 0).val = t.val * 512 + (y 0).val; rw [e0]; omega
  | ⟨1, _⟩ => show win0_2.index t (1 : Fin 3) * 2 + 1 * (y 1).val = (y 1).val; rw [e1]; omega
  | ⟨2, _⟩ => show win0_2.index t (2 : Fin 3) * 2 + 1 * (y 2).val = (y 2).val; rw [e2]; omega

theorem iblk3_eq (c : Dev nD) (t : Fin cfg0.N) :
    iblk m c 3 t = fun (y : S512x2.Idx) => V m c main_v3 (ix2 (rowAt t (y 0)) (y 1)) := by
  funext y
  show V m c main_v3 (((cfg0.win 3).blk t).view.emb y) = _
  refine congrArg (V m c main_v3) (funext fun a => Fin.ext ?_)
  obtain ⟨-, -, -, ⟨e0, e1⟩, -⟩ := idx_facts t
  match a with
  | ⟨0, _⟩ => show win0_3.index t (0 : Fin 2) * 512 + 1 * (y 0).val = t.val * 512 + (y 0).val; rw [e0]; omega
  | ⟨1, _⟩ => show win0_3.index t (1 : Fin 2) * 2 + 1 * (y 1).val = (y 1).val; rw [e1]; omega

theorem iblk4_eq (c : Dev nD) (t : Fin cfg0.N) :
    iblk m c 4 t = fun (y : S2x49.Idx) => V m c main_arg4 (ix2 (y 0) (y 1)) := by
  funext y
  show V m c main_arg4 (((cfg0.win 4).blk t).view.emb y) = _
  refine congrArg (V m c main_arg4) (funext fun a => Fin.ext ?_)
  obtain ⟨-, -, -, -, ⟨e0, e1⟩, -⟩ := idx_facts t
  match a with
  | ⟨0, _⟩ => show win0_4.index t (0 : Fin 2) * 2 + 1 * (y 0).val = (y 0).val; rw [e0]; omega
  | ⟨1, _⟩ => show win0_4.index t (1 : Fin 2) * 49 + 1 * (y 1).val = (y 1).val; rw [e1]; omega

theorem iblk5_eq (c : Dev nD) (t : Fin cfg0.N) :
    iblk m c 5 t = fun (y : S1x49.Idx) => V m c main_v4 (ix2 (y 0) (y 1)) := by
  funext y
  show V m c main_v4 (((cfg0.win 5).blk t).view.emb y) = _
  refine congrArg (V m c main_v4) (funext fun a => Fin.ext ?_)
  obtain ⟨-, -, -, -, -, ⟨e0, e1⟩, -⟩ := idx_facts t
  match a with
  | ⟨0, _⟩ => show win0_5.index t (0 : Fin 2) * 1 + 1 * (y 0).val = (y 0).val; rw [e0]; omega
  | ⟨1, _⟩ => show win0_5.index t (1 : Fin 2) * 49 + 1 * (y 1).val = (y 1).val; rw [e1]; omega

/-! ## The points -/

/-- Where entry `y` of point `t`'s block of the points sits in the whole array. -/
theorem emb6_eq (t : Fin cfg0.N) (y : S512x49x2.Idx) :
    ((cfg0.win 6).blk t).view.emb y = ix3 (rowAt t (y 0)) (y 1) (y 2) := by
  funext a; apply Fin.ext
  obtain ⟨-, -, -, -, -, -, ⟨e0, e1, e2⟩, -⟩ := idx_facts t
  match a with
  | ⟨0, _⟩ => show win0_6.index t (0 : Fin 3) * 512 + 1 * (y 0).val = t.val * 512 + (y 0).val; rw [e0]; omega
  | ⟨1, _⟩ => show win0_6.index t (1 : Fin 3) * 49 + 1 * (y 1).val = (y 1).val; rw [e1]; omega
  | ⟨2, _⟩ => show win0_6.index t (2 : Fin 3) * 2 + 1 * (y 2).val = (y 2).val; rw [e2]; omega

/-- What point `t` writes back to the points is its block of the row form of the points. -/
theorem flushed6_eq (c : Dev nD) (t : Fin cfg0.N) :
    (dats m 0 c).flushed 6 t = ((cfg0.win 6).blk t).view.read (Elt Ideal)
      (Cert.Spec.rowPoints (V m c main_v2) (V m c main_v3) (V m c main_arg4)) := by
  show (cfg0.win 6).cut (grid0.coords t) ((dats m 0 c).after 6 t) = _
  rw [after0_6]
  unfold out0_6
  rw [View.canon_unit_zero hz3]
  simp only [View.ld_unit_zero (S := S512x2) hz2, View.ld_unit_zero (S := S512x2x2) hz3, View.ld_unit_zero (S := S2x49) hz2]
  rw [iblk2_eq, iblk3_eq, iblk4_eq]
  funext y
  refine (Cert.Body.blockPoints _ _ _ y).trans ?_
  show _ = Cert.Spec.rowPoints (V m c main_v2) (V m c main_v3) (V m c main_arg4) (((cfg0.win 6).blk t).view.emb y)
  rw [emb6_eq]
  rfl

theorem mem_blk6 (t : Fin cfg0.N) (i : S524288x49x2.Idx) :
    i ∈ ((cfg0.win 6).blk t).view.set ↔ ∀ a : Fin 3, win0_6.index t a * S512x49x2.size a ≤ (i a).val ∧ (i a).val < win0_6.index t a * S512x49x2.size a + S512x49x2.size a := by
  show i ∈ ((View.whole main_v5_0).slice (win0_6.rect t)).set ↔ _
  rw [View.set_slice_whole, Rect.mem_set_unit]
  exact Iff.rfl

/-- Every entry of the points is in the block of the point that holds its row. -/
theorem cover6 (i : S524288x49x2.Idx) :
    ∃ t : Fin cfg0.N, (cfg0.win 6).flush t = true ∧ i ∈ ((cfg0.win 6).blk t).view.set := by
  have h0 : (i 0).val < 524288 := (i 0).isLt
  have h1 : (i 1).val < 49 := (i 1).isLt
  have h2 : (i 2).val < 2 := (i 2).isLt
  refine ⟨pointOf (i 0), flush0_6 _, ?_⟩
  rw [mem_blk6]
  obtain ⟨-, -, -, -, -, -, ⟨e0, e1, e2⟩, -⟩ := idx_facts (pointOf (i 0))
  intro a
  match a with
  | ⟨0, _⟩ =>
    show win0_6.index (pointOf (i 0)) (0 : Fin 3) * 512 ≤ (i 0).val ∧ (i 0).val < win0_6.index (pointOf (i 0)) (0 : Fin 3) * 512 + 512
    rw [e0]
    show (i 0).val / 512 * 512 ≤ (i 0).val ∧ (i 0).val < (i 0).val / 512 * 512 + 512
    omega
  | ⟨1, _⟩ =>
    show win0_6.index (pointOf (i 0)) (1 : Fin 3) * 49 ≤ (i 1).val ∧ (i 1).val < win0_6.index (pointOf (i 0)) (1 : Fin 3) * 49 + 49
    rw [e1]; omega
  | ⟨2, _⟩ =>
    show win0_6.index (pointOf (i 0)) (2 : Fin 3) * 2 ≤ (i 2).val ∧ (i 2).val < win0_6.index (pointOf (i 0)) (2 : Fin 3) * 2 + 2
    rw [e2]; omega

/-- The array of points after the run. -/
theorem final6 (c : Dev nD) :
    (dats m 0 c).arrAt 6 cfg0.N = Cert.Spec.rowPoints (V m c main_v2) (V m c main_v3) (V m c main_arg4) :=
  (dats m 0 c).arrAt_eq_of_cover 6 _ (fun t _ => flushed6_eq m c t) cover6

/-! ## The integrals -/

theorem emb7_eq (t : Fin cfg0.N) (y : S512x1.Idx) :
    ((cfg0.win 7).blk t).view.emb y = ix2 (rowAt t (y 0)) (y 1) := by
  funext a; apply Fin.ext
  obtain ⟨-, -, -, -, -, -, -, ⟨e0, e1⟩⟩ := idx_facts t
  match a with
  | ⟨0, _⟩ => show win0_7.index t (0 : Fin 2) * 512 + 1 * (y 0).val = t.val * 512 + (y 0).val; rw [e0]; omega
  | ⟨1, _⟩ => show win0_7.index t (1 : Fin 2) * 1 + 1 * (y 1).val = (y 1).val; rw [e1]; omega

/-- What point `t` writes back to the integrals is its block of the row form of the integrals. -/
theorem flushed7_eq (c : Dev nD) (t : Fin cfg0.N) :
    (dats m 0 c).flushed 7 t = ((cfg0.win 7).blk t).view.read (Elt Ideal)
      (Cert.Spec.rowIntegrals (V m c main_v0) (V m c main_v1) (V m c main_v2) (V m c main_v3) (V m c main_arg4) (V m c main_v4)) := by
  show (cfg0.win 7).cut (grid0.coords t) ((dats m 0 c).after 7 t) = _
  rw [after0_7]
  unfold out0_7
  rw [View.canon_unit_zero hz2]
  simp only [View.ld_unit_zero (S := S512x2) hz2, View.ld_unit_zero (S := S512x2x2) hz3, View.ld_unit_zero (S := S2x49) hz2,
    View.ld_unit_zero (S := S1x49) hz2]
  rw [iblk0_eq, iblk1_eq, iblk2_eq, iblk3_eq, iblk4_eq, iblk5_eq]
  funext y
  refine (Cert.Body.blockIntegrals _ _ _ _ _ _ y).trans ?_
  show _ = Cert.Spec.rowIntegrals (V m c main_v0) (V m c main_v1) (V m c main_v2) (V m c main_v3) (V m c main_arg4) (V m c main_v4)
    (((cfg0.win 7).blk t).view.emb y)
  rw [emb7_eq]
  rfl

theorem mem_blk7 (t : Fin cfg0.N) (i : S524288x1.Idx) :
    i ∈ ((cfg0.win 7).blk t).view.set ↔ ∀ a : Fin 2, win0_7.index t a * S512x1.size a ≤ (i a).val ∧ (i a).val < win0_7.index t a * S512x1.size a + S512x1.size a := by
  show i ∈ ((View.whole main_v5_1).slice (win0_7.rect t)).set ↔ _
  rw [View.set_slice_whole, Rect.mem_set_unit]
  exact Iff.rfl

theorem cover7 (i : S524288x1.Idx) :
    ∃ t : Fin cfg0.N, (cfg0.win 7).flush t = true ∧ i ∈ ((cfg0.win 7).blk t).view.set := by
  have h0 : (i 0).val < 524288 := (i 0).isLt
  have h1 : (i 1).val < 1 := (i 1).isLt
  refine ⟨pointOf (i 0), flush0_7 _, ?_⟩
  rw [mem_blk7]
  obtain ⟨-, -, -, -, -, -, -, ⟨e0, e1⟩⟩ := idx_facts (pointOf (i 0))
  intro a
  match a with
  | ⟨0, _⟩ =>
    show win0_7.index (pointOf (i 0)) (0 : Fin 2) * 512 ≤ (i 0).val ∧ (i 0).val < win0_7.index (pointOf (i 0)) (0 : Fin 2) * 512 + 512
    rw [e0]
    show (i 0).val / 512 * 512 ≤ (i 0).val ∧ (i 0).val < (i 0).val / 512 * 512 + 512
    omega
  | ⟨1, _⟩ =>
    show win0_7.index (pointOf (i 0)) (1 : Fin 2) * 1 ≤ (i 1).val ∧ (i 1).val < win0_7.index (pointOf (i 0)) (1 : Fin 2) * 1 + 1
    rw [e1]; omega

/-- The column of integrals after the run. -/
theorem final7 (c : Dev nD) :
    (dats m 0 c).arrAt 7 cfg0.N
      = Cert.Spec.rowIntegrals (V m c main_v0) (V m c main_v1) (V m c main_v2) (V m c main_v3) (V m c main_arg4) (V m c main_v4) :=
  (dats m 0 c).arrAt_eq_of_cover 7 _ (fun t _ => flushed7_eq m c t) cover7

end Cert.Blocks

end
-- ==== Proof.KernelRun.lean ====
/-
  The whole program around the region: the host reshapes each per-pair argument [2048, 256, …] to rows [524288, …]
  (and the weights to one row) before the region, and the two row-form outputs back to [2048, 256, …] after it. With the
  region's arrays at the row form of the specification, the two results are the specification's `points` and
  `integrals` of the argument arrays.
-/
import proofs.«167904_j49100066128336_2_alg».proof.Proof.Blocks
import Idealize.ShloMosaic.Lib.StableHlo.Run

noncomputable section

namespace Cert.KernelRun

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds -/

theorem V_main_v0 (c : Dev nD) :
    (V m c main_v0 : S524288x2.Idx → EReal) = shapeCast S524288x2 (m ((c : Thread nD τ).loc main_arg0)) shapeCasts_S2048x256x2_S524288x2 := by
  show StableHlo.after hostOps0 (fun b => m (c, b)) (Proc.devRef .tc main_v0) = _
  after_results; rfl

theorem V_main_v1 (c : Dev nD) :
    (V m c main_v1 : S524288x2x2.Idx → EReal) = shapeCast S524288x2x2 (m ((c : Thread nD τ).loc main_arg1)) shapeCasts_S2048x256x2x2_S524288x2x2 := by
  show StableHlo.after hostOps0 (fun b => m (c, b)) (Proc.devRef .tc main_v1) = _
  after_results; rfl

theorem V_main_v2 (c : Dev nD) :
    (V m c main_v2 : S524288x2x2.Idx → EReal) = shapeCast S524288x2x2 (m ((c : Thread nD τ).loc main_arg2)) shapeCasts_S2048x256x2x2_S524288x2x2 := by
  show StableHlo.after hostOps0 (fun b => m (c, b)) (Proc.devRef .tc main_v2) = _
  after_results; rfl

theorem V_main_v3 (c : Dev nD) :
    (V m c main_v3 : S524288x2.Idx → EReal) = shapeCast S524288x2 (m ((c : Thread nD τ).loc main_arg3)) shapeCasts_S2048x256x2_S524288x2 := by
  show StableHlo.after hostOps0 (fun b => m (c, b)) (Proc.devRef .tc main_v3) = _
  after_results; rfl

theorem V_main_v4 (c : Dev nD) :
    (V m c main_v4 : S1x49.Idx → EReal) = shapeCast S1x49 (m ((c : Thread nD τ).loc main_arg5)) shapeCasts_S49_S1x49 := by
  show StableHlo.after hostOps0 (fun b => m (c, b)) (Proc.devRef .tc main_v4) = _
  after_results; rfl

/-! ## The results after the region -/

/-- The first result: the reshape of the region's array of points. -/
theorem tail6 (c : Dev nD) :
    Pipeline.afterTail₀ cfgs (dats m) 0 (V0 m) [hostOps1] c main_v6
      = Cert.Spec.points (m ((c : Thread nD τ).loc main_arg2)) (m ((c : Thread nD τ).loc main_arg3)) (m ((c : Thread nD τ).loc main_arg4)) := by
  unfold Pipeline.afterTail₀
  show StableHlo.after hostOps1 _ (Proc.devRef .tc main_v6) = _
  after_results
  rw [(Pipeline.withArrays_arr spec0 launch0.win.arr_inj c _ _ 6).trans (Cert.Blocks.final6 m c), V_main_v2, V_main_v3, V_main_arg4]
  exact Cert.Spec.points_eq _ _ _ _ _ _

/-- The second result: the reshape of the region's column of integrals. -/
theorem tail7 (c : Dev nD) :
    Pipeline.afterTail₀ cfgs (dats m) 0 (V0 m) [hostOps1] c main_v7
      = Cert.Spec.integrals (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v7) = _
  after_results
  rw [(Pipeline.withArrays_arr spec0 launch0.win.arr_inj c _ _ 7).trans (Cert.Blocks.final7 m c), V_main_v0, V_main_v1, V_main_v2, V_main_v3,
    V_main_arg4, V_main_v4]
  exact Cert.Spec.integrals_eq _ _ _ _ _ _ _ _ _ _

/-! ## The run -/

/-- Every weakly fair execution of the program terminates with the two results at the specification's functions of the
    argument arrays, and the arguments as launched. -/
theorem run : θ_run defs (onTc (τ := τ) (main (F := Ideal))) ⟨m, fun _ => 0, ρ⟩ fun r => ∀ c : Dev nD,
      r.2.mem ((c.tc : Thread nD τ).loc main_v6)
        = Cert.Spec.points (m ((c.tc : Thread nD τ).loc main_arg2)) (m ((c.tc : Thread nD τ).loc main_arg3)) (m ((c.tc : Thread nD τ).loc main_arg4))
      ∧ r.2.mem ((c.tc : Thread nD τ).loc main_v7)
        = Cert.Spec.integrals (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v6 (Pipeline.mem_restRefs_of main_v6 (by decide) (by decide))).trans (tail6 m c),
      ((h c).2 main_v7 (Pipeline.mem_restRefs_of main_v7 (by decide) (by decide))).trans (tail7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelRun

end
-- ==== Proof.RefValue.lean ====
/-
  The reference program's two results, entry by entry, are the specification's.

  Each result entry is read from the program one operation at a time down to the argument arrays. The layout
  operations (transposes, broadcasts, slices, reshapes) only move an index; composed at literal coordinates they give
  the argument entry at those coordinates. The arithmetic is then the specification's, operation for operation; the
  two differences are that the program's contraction over the two point coordinates is a two-term sum with the factors
  in the other order, and that its sum over the 49 quadrature points starts from the zero word.
-/
import proofs.«167904_j49100066128336_2_alg».proof.Proof.Gen.ReferenceIdeal.Read
import proofs.«167904_j49100066128336_2_alg».proof.Proof.Spec
import Idealize.ShloMosaic.PureOps.Ideal.Laws

noncomputable section

namespace Cert.RefValue

open Idealize.ShloMosaic Idealize.ShloMosaic.ValueIdx Cert.ReferenceIdeal Cert.ReferenceIdeal.Read

/-! ## The points -/

/-- The contraction's left index at entry `(b1, b2, q, i)` and term `k`: the quadrature table's `(k, q)`. -/
theorem lidx_v0_at (b1 : Fin 2048) (b2 : Fin 256) (q : Fin 49) (i : Fin 2) (k : Fin 2) :
    lidx_main_v0 (idx_main_v1 (ix4 b1 b2 q i)) k = ix2 k q :=
  funext fun a => Fin.ext (by
    match a with
    | ⟨0, _⟩ => rfl
    | ⟨1, _⟩ => rfl)

/-- The contraction's right index at entry `(b1, b2, q, i)` and term `k`: the rotation's `(b1, b2, i, k)`. -/
theorem ridx_v0_at (b1 : Fin 2048) (b2 : Fin 256) (q : Fin 49) (i : Fin 2) (k : Fin 2) :
    ridx_main_v0 (idx_main_v1 (ix4 b1 b2 q i)) k = ix4 b1 b2 i k :=
  funext fun a => Fin.ext (by
    match a with
    | ⟨0, _⟩ => rfl
    | ⟨1, _⟩ => rfl
    | ⟨2, _⟩ => rfl
    | ⟨3, _⟩ => rfl)

/-- The two broadcasts of a `[2048, 256, 2]` array over the 49 points read, at `(b1, b2, q, i)`, its `(b1, b2, i)`. -/
theorem idx_v2_v3_at (b1 : Fin 2048) (b2 : Fin 256) (q : Fin 49) (i : Fin 2) :
    idx_main_v2 (idx_main_v3 (ix4 b1 b2 q i)) = ix3 b1 b2 i :=
  funext fun a => Fin.ext (by
    match a with
    | ⟨0, _⟩ => rfl
    | ⟨1, _⟩ => rfl
    | ⟨2, _⟩ => rfl)

/-- The first result at `(b1, b2, q, i)`: the rotated and translated point's coordinate `i`. -/
theorem v4_at (x2 : (⟨S2048x256x2x2, .f32⟩ : BufTy).Contents (Elt Ideal)) (x3 : (⟨S2048x256x2, .f32⟩ : BufTy).Contents (Elt Ideal))
    (x4 : (⟨S2x49, .f32⟩ : BufTy).Contents (Elt Ideal)) (b1 : Fin 2048) (b2 : Fin 256) (q : Fin 49) (i : Fin 2) :
    val_main_v4 (F := Ideal) x2 x3 x4 (ix4 b1 b2 q i)
      = Cert.Spec.point (x2 (ix4 b1 b2 i (0 : Fin 2))) (x2 (ix4 b1 b2 i (1 : Fin 2))) (x3 (ix3 b1 b2 i))
          (x4 (ix2 (0 : Fin 2) q)) (x4 (ix2 (1 : Fin 2) q)) := by
  rw [val_main_v4_apply, val_main_v1_apply, val_main_v0_apply, val_main_v3_apply, val_main_v2_apply,
    idx_v2_v3_at, Fin.sum_univ_two, lidx_v0_at, lidx_v0_at, ridx_v0_at, ridx_v0_at, Ideal.addf_def]
  unfold Cert.Spec.point
  rw [mul_comm (x4 (ix2 (0 : Fin 2) q)), mul_comm (x4 (ix2 (1 : Fin 2) q))]

/-- The reference's first result is the specification's points. -/
theorem ref_points (x2 : (⟨S2048x256x2x2, .f32⟩ : BufTy).Contents (Elt Ideal)) (x3 : (⟨S2048x256x2, .f32⟩ : BufTy).Contents (Elt Ideal)) (x4 : (⟨S2x49, .f32⟩ : BufTy).Contents (Elt Ideal)) :
    val_main_v4 (F := Ideal) x2 x3 x4 = Cert.Spec.points x2 x3 x4 := by
  funext j
  obtain ⟨b1, b2, q, i, rfl⟩ : ∃ (b1 : Fin 2048) (b2 : Fin 256) (q : Fin 49) (i : Fin 2), j = ix4 b1 b2 q i :=
    ⟨j 0, j 1, j 2, j 3, eq_ix4 j⟩
  exact v4_at x2 x3 x4 b1 b2 q i

/-! ## The integrals -/

section Integrals

variable (x0 : (⟨S2048x256x2, .f32⟩ : BufTy).Contents (Elt Ideal)) (x1 x2 : (⟨S2048x256x2x2, .f32⟩ : BufTy).Contents (Elt Ideal))
  (x3 : (⟨S2048x256x2, .f32⟩ : BufTy).Contents (Elt Ideal)) (x4 : (⟨S2x49, .f32⟩ : BufTy).Contents (Elt Ideal))
  (x5 : (⟨S49, .f32⟩ : BufTy).Contents (Elt Ideal)) (b1 : Fin 2048) (b2 : Fin 256)

/-- The two broadcasts of the mean over the 49 points read, at `(b1, b2, q, i)`, its `(b1, b2, i)`. -/
theorem idx_v5_v6_at (q : Fin 49) (i : Fin 2) : idx_main_v5 (idx_main_v6 (ix4 b1 b2 q i)) = ix3 b1 b2 i :=
  funext fun a => Fin.ext (by
    match a with
    | ⟨0, _⟩ => rfl
    | ⟨1, _⟩ => rfl
    | ⟨2, _⟩ => rfl)

/-- The offset from the mean at `(b1, b2, q, i)`. -/
theorem v7_at (q : Fin 49) (i : Fin 2) :
    val_main_v7 (F := Ideal) x0 x2 x3 x4 (ix4 b1 b2 q i)
      = Cert.Spec.point (x2 (ix4 b1 b2 i (0 : Fin 2))) (x2 (ix4 b1 b2 i (1 : Fin 2))) (x3 (ix3 b1 b2 i))
          (x4 (ix2 (0 : Fin 2) q)) (x4 (ix2 (1 : Fin 2) q)) - x0 (ix3 b1 b2 i) := by
  rw [val_main_v7_apply, v4_at, val_main_v6_apply, val_main_v5_apply, idx_v5_v6_at, Ideal.subf_def]

/-- Coordinate 0 cut out and the unit axis dropped: entry `(b1, b2, q)` reads `(b1, b2, q, 0)`. -/
theorem idx_v8_v9_at (q : Fin 49) : idx_main_v8 (idx_main_v9 (ix3 b1 b2 q)) = ix4 b1 b2 q (0 : Fin 2) :=
  funext fun a => Fin.ext (by
    have h1 := b1.isLt
    have h2 := b2.isLt
    have h3 := q.isLt
    match a with
    | ⟨0, _⟩ => show ((b1.val * 256 + b2.val) * 49 + q.val) / 12544 = b1.val; omega
    | ⟨1, _⟩ => show ((b1.val * 256 + b2.val) * 49 + q.val) / 49 % 256 = b2.val; omega
    | ⟨2, _⟩ => show ((b1.val * 256 + b2.val) * 49 + q.val) / 1 % 49 = q.val; omega
    | ⟨3, _⟩ => rfl)

/-- Coordinate 1 cut out and the unit axis dropped: entry `(b1, b2, q)` reads `(b1, b2, q, 1)`. -/
theorem idx_v10_v11_at (q : Fin 49) : idx_main_v10 (idx_main_v11 (ix3 b1 b2 q)) = ix4 b1 b2 q (1 : Fin 2) :=
  funext fun a => Fin.ext (by
    have h1 := b1.isLt
    have h2 := b2.isLt
    have h3 := q.isLt
    match a with
    | ⟨0, _⟩ => show ((b1.val * 256 + b2.val) * 49 + q.val) / 12544 = b1.val; omega
    | ⟨1, _⟩ => show ((b1.val * 256 + b2.val) * 49 + q.val) / 49 % 256 = b2.val; omega
    | ⟨2, _⟩ => show ((b1.val * 256 + b2.val) * 49 + q.val) / 1 % 49 = q.val; omega
    | ⟨3, _⟩ => rfl)

/-- The offset's coordinate 0 at the point `q`. -/
theorem v9_at (q : Fin 49) :
    val_main_v9 (F := Ideal) x0 x2 x3 x4 (ix3 b1 b2 q)
      = Cert.Spec.point (x2 (ix4 b1 b2 (0 : Fin 2) (0 : Fin 2))) (x2 (ix4 b1 b2 (0 : Fin 2) (1 : Fin 2))) (x3 (ix3 b1 b2 (0 : Fin 2)))
          (x4 (ix2 (0 : Fin 2) q)) (x4 (ix2 (1 : Fin 2) q)) - x0 (ix3 b1 b2 (0 : Fin 2)) := by
  rw [val_main_v9_apply, val_main_v8_apply, idx_v8_v9_at, v7_at]

/-- The offset's coordinate 1 at the point `q`. -/
theorem v11_at (q : Fin 49) :
    val_main_v11 (F := Ideal) x0 x2 x3 x4 (ix3 b1 b2 q)
      = Cert.Spec.point (x2 (ix4 b1 b2 (1 : Fin 2) (0 : Fin 2))) (x2 (ix4 b1 b2 (1 : Fin 2) (1 : Fin 2))) (x3 (ix3 b1 b2 (1 : Fin 2)))
          (x4 (ix2 (0 : Fin 2) q)) (x4 (ix2 (1 : Fin 2) q)) - x0 (ix3 b1 b2 (1 : Fin 2)) := by
  rw [val_main_v11_apply, val_main_v10_apply, idx_v10_v11_at, v7_at]

/-! One covariance entry cut out of every pair's matrix, the two unit axes dropped and one added again: entry
    `(b1, b2, u)` reads the covariance at `(b1, b2, r, s)`. -/

theorem idx_c00_at (u : Fin 1) :
    idx_main_v12 (idx_main_v13 (idx_main_v14 (ix3 b1 b2 u))) = ix4 b1 b2 (0 : Fin 2) (0 : Fin 2) :=
  funext fun a => Fin.ext (by
    have h1 := b1.isLt
    have h2 := b2.isLt
    match a with
    | ⟨0, _⟩ => show (b1.val * 256 + b2.val) / 256 = b1.val; omega
    | ⟨1, _⟩ => show (b1.val * 256 + b2.val) / 1 % 256 = b2.val; omega
    | ⟨2, _⟩ => rfl
    | ⟨3, _⟩ => rfl)

theorem idx_c01_at (u : Fin 1) :
    idx_main_v15 (idx_main_v16 (idx_main_v17 (ix3 b1 b2 u))) = ix4 b1 b2 (0 : Fin 2) (1 : Fin 2) :=
  funext fun a => Fin.ext (by
    have h1 := b1.isLt
    have h2 := b2.isLt
    match a with
    | ⟨0, _⟩ => show (b1.val * 256 + b2.val) / 256 = b1.val; omega
    | ⟨1, _⟩ => show (b1.val * 256 + b2.val) / 1 % 256 = b2.val; omega
    | ⟨2, _⟩ => rfl
    | ⟨3, _⟩ => rfl)

theorem idx_c10_at (u : Fin 1) :
    idx_main_v18 (idx_main_v19 (idx_main_v20 (ix3 b1 b2 u))) = ix4 b1 b2 (1 : Fin 2) (0 : Fin 2) :=
  funext fun a => Fin.ext (by
    have h1 := b1.isLt
    have h2 := b2.isLt
    match a with
    | ⟨0, _⟩ => show (b1.val * 256 + b2.val) / 256 = b1.val; omega
    | ⟨1, _⟩ => show (b1.val * 256 + b2.val) / 1 % 256 = b2.val; omega
    | ⟨2, _⟩ => rfl
    | ⟨3, _⟩ => rfl)

theorem idx_c11_at (u : Fin 1) :
    idx_main_v21 (idx_main_v22 (idx_main_v23 (ix3 b1 b2 u))) = ix4 b1 b2 (1 : Fin 2) (1 : Fin 2) :=
  funext fun a => Fin.ext (by
    have h1 := b1.isLt
    have h2 := b2.isLt
    match a with
    | ⟨0, _⟩ => show (b1.val * 256 + b2.val) / 256 = b1.val; omega
    | ⟨1, _⟩ => show (b1.val * 256 + b2.val) / 1 % 256 = b2.val; omega
    | ⟨2, _⟩ => rfl
    | ⟨3, _⟩ => rfl)

/-- The covariance entry (0, 0) of the pair. -/
theorem c00_at (u : Fin 1) : val_main_v14 (F := Ideal) x1 (ix3 b1 b2 u) = x1 (ix4 b1 b2 (0 : Fin 2) (0 : Fin 2)) := by
  rw [val_main_v14_apply, val_main_v13_apply, val_main_v12_apply, idx_c00_at]

/-- The covariance entry (0, 1) of the pair. -/
theorem c01_at (u : Fin 1) : val_main_v17 (F := Ideal) x1 (ix3 b1 b2 u) = x1 (ix4 b1 b2 (0 : Fin 2) (1 : Fin 2)) := by
  rw [val_main_v17_apply, val_main_v16_apply, val_main_v15_apply, idx_c01_at]

/-- The covariance entry (1, 0) of the pair. -/
theorem c10_at (u : Fin 1) : val_main_v20 (F := Ideal) x1 (ix3 b1 b2 u) = x1 (ix4 b1 b2 (1 : Fin 2) (0 : Fin 2)) := by
  rw [val_main_v20_apply, val_main_v19_apply, val_main_v18_apply, idx_c10_at]

/-- The covariance entry (1, 1) of the pair. -/
theorem c11_at (u : Fin 1) : val_main_v23 (F := Ideal) x1 (ix3 b1 b2 u) = x1 (ix4 b1 b2 (1 : Fin 2) (1 : Fin 2)) := by
  rw [val_main_v23_apply, val_main_v22_apply, val_main_v21_apply, idx_c11_at]

/-- The determinant of the pair's covariance. -/
theorem det_at (u : Fin 1) :
    val_main_v26 (F := Ideal) x1 (ix3 b1 b2 u) = Cert.Spec.det (x1 (ix4 b1 b2 (0 : Fin 2) (0 : Fin 2))) (x1 (ix4 b1 b2 (0 : Fin 2) (1 : Fin 2))) (x1 (ix4 b1 b2 (1 : Fin 2) (0 : Fin 2))) (x1 (ix4 b1 b2 (1 : Fin 2) (1 : Fin 2))) := by
  rw [val_main_v26_apply, val_main_v24_apply, val_main_v25_apply, c00_at, c11_at, c01_at, c10_at, Ideal.subf_def,
    Ideal.mulf_def, Ideal.mulf_def]
  rfl

/-! A per-pair value broadcast over the 49 points reads, at `(b1, b2, q)`, the pair's `(b1, b2, 0)`. -/

theorem idx_v27_at (q : Fin 49) : idx_main_v27 (ix3 b1 b2 q) = ix3 b1 b2 (0 : Fin 1) :=
  funext fun a => Fin.ext (by
    match a with
    | ⟨0, _⟩ => rfl
    | ⟨1, _⟩ => rfl
    | ⟨2, _⟩ => rfl)

theorem idx_v31_at (q : Fin 49) : idx_main_v31 (ix3 b1 b2 q) = ix3 b1 b2 (0 : Fin 1) :=
  funext fun a => Fin.ext (by
    match a with
    | ⟨0, _⟩ => rfl
    | ⟨1, _⟩ => rfl
    | ⟨2, _⟩ => rfl)

theorem idx_v35_at (q : Fin 49) : idx_main_v35 (ix3 b1 b2 q) = ix3 b1 b2 (0 : Fin 1) :=
  funext fun a => Fin.ext (by
    match a with
    | ⟨0, _⟩ => rfl
    | ⟨1, _⟩ => rfl
    | ⟨2, _⟩ => rfl)

theorem idx_v39_at (q : Fin 49) : idx_main_v39 (ix3 b1 b2 q) = ix3 b1 b2 (0 : Fin 1) :=
  funext fun a => Fin.ext (by
    match a with
    | ⟨0, _⟩ => rfl
    | ⟨1, _⟩ => rfl
    | ⟨2, _⟩ => rfl)

theorem idx_v48_at (q : Fin 49) : idx_main_v48 (ix3 b1 b2 q) = ix3 b1 b2 (0 : Fin 1) :=
  funext fun a => Fin.ext (by
    match a with
    | ⟨0, _⟩ => rfl
    | ⟨1, _⟩ => rfl
    | ⟨2, _⟩ => rfl)

/-- The quadratic form at the point `q`, in terms of the offset's two coordinates there. -/
theorem quad_at (q : Fin 49) :
    val_main_v40 (F := Ideal) x0 x1 x2 x3 x4 (ix3 b1 b2 q)
      = Cert.Spec.quad (x1 (ix4 b1 b2 (0 : Fin 2) (0 : Fin 2))) (x1 (ix4 b1 b2 (0 : Fin 2) (1 : Fin 2))) (x1 (ix4 b1 b2 (1 : Fin 2) (0 : Fin 2))) (x1 (ix4 b1 b2 (1 : Fin 2) (1 : Fin 2)))
          (val_main_v9 (F := Ideal) x0 x2 x3 x4 (ix3 b1 b2 q)) (val_main_v11 (F := Ideal) x0 x2 x3 x4 (ix3 b1 b2 q)) := by
  rw [val_main_v40_apply, val_main_v38_apply, val_main_v34_apply, val_main_v29_apply, val_main_v28_apply,
    val_main_v27_apply, idx_v27_at, c11_at, val_main_v33_apply, val_main_v32_apply, val_main_v31_apply, idx_v31_at,
    val_main_v30_apply, c01_at, c10_at, val_main_v37_apply, val_main_v36_apply, val_main_v35_apply, idx_v35_at, c00_at,
    val_main_v39_apply, idx_v39_at, det_at]
  simp only [Ideal.mulf_def, Ideal.addf_def, Ideal.subf_def, Ideal.hostDivf_def]
  rfl

/-- The weights broadcast over the pairs read, at `(b1, b2, q)`, the weight `q`. -/
theorem idx_v51_v52_at (q : Fin 49) : idx_main_v51 (idx_main_v52 (ix3 b1 b2 q)) = ix1 q :=
  funext fun a => Fin.ext (by
    match a with
    | ⟨0, _⟩ => rfl)

/-- The weighted density at the point `q`, in terms of the offset's two coordinates there. -/
theorem term_at (q : Fin 49) :
    val_main_v53 (F := Ideal) x0 x1 x2 x3 x4 x5 (ix3 b1 b2 q)
      = Cert.Spec.term (x1 (ix4 b1 b2 (0 : Fin 2) (0 : Fin 2))) (x1 (ix4 b1 b2 (0 : Fin 2) (1 : Fin 2))) (x1 (ix4 b1 b2 (1 : Fin 2) (0 : Fin 2))) (x1 (ix4 b1 b2 (1 : Fin 2) (1 : Fin 2)))
          (val_main_v9 (F := Ideal) x0 x2 x3 x4 (ix3 b1 b2 q)) (val_main_v11 (F := Ideal) x0 x2 x3 x4 (ix3 b1 b2 q)) (x5 (ix1 q)) := by
  rw [val_main_v53_apply, val_main_v50_apply, val_main_v49_apply, val_main_v44_apply, val_main_v42_apply,
    val_main_v41_apply, val_main_cst_apply, quad_at, val_main_v43_apply, val_main_cst_0_apply, val_main_v48_apply,
    idx_v48_at, val_main_v47_apply, val_main_v46_apply, val_main_cst_1_apply, val_main_v45_apply, det_at,
    val_main_v52_apply, val_main_v51_apply, idx_v51_v52_at]
  simp only [Ideal.mulf_def, Ideal.subf_def, Ideal.hostUnary_exp_def, Ideal.hostUnary_log_def, Ideal.ofBits_def]
  rfl

/-- The sum's index at the pair `(b1, b2)` and term `q`. -/
theorem idx_v54_at (q : Fin 49) : idx_main_v54 (ix2 b1 b2) q = ix3 b1 b2 q :=
  funext fun a => Fin.ext (by
    match a with
    | ⟨0, _⟩ => rfl
    | ⟨1, _⟩ => rfl
    | ⟨2, _⟩ => rfl)

/-- The sum over the 49 points at the pair `(b1, b2)`; the zero word it starts from adds nothing. -/
theorem v54_at :
    val_main_v54 (F := Ideal) x0 x1 x2 x3 x4 x5 (ix2 b1 b2)
      = ∑ q : Fin 49, Cert.Spec.term (x1 (ix4 b1 b2 (0 : Fin 2) (0 : Fin 2))) (x1 (ix4 b1 b2 (0 : Fin 2) (1 : Fin 2))) (x1 (ix4 b1 b2 (1 : Fin 2) (0 : Fin 2))) (x1 (ix4 b1 b2 (1 : Fin 2) (1 : Fin 2)))
          (val_main_v9 (F := Ideal) x0 x2 x3 x4 (ix3 b1 b2 q)) (val_main_v11 (F := Ideal) x0 x2 x3 x4 (ix3 b1 b2 q)) (x5 (ix1 q)) := by
  rw [val_main_v54_apply, val_main_cst_2_apply, Ideal.ofBits_def, Ideal.ofBits_zero_f32, zero_add]
  refine Finset.sum_congr rfl fun q _ => ?_
  rw [idx_v54_at, term_at]

/-- The second result at the pair `(b1, b2)`: the sum clipped to `[0, 1]`. -/
theorem v55_at :
    val_main_v55 (F := Ideal) x0 x1 x2 x3 x4 x5 (ix2 b1 b2)
      = Cert.Spec.clip (∑ q : Fin 49, Cert.Spec.term (x1 (ix4 b1 b2 (0 : Fin 2) (0 : Fin 2))) (x1 (ix4 b1 b2 (0 : Fin 2) (1 : Fin 2))) (x1 (ix4 b1 b2 (1 : Fin 2) (0 : Fin 2))) (x1 (ix4 b1 b2 (1 : Fin 2) (1 : Fin 2)))
          (val_main_v9 (F := Ideal) x0 x2 x3 x4 (ix3 b1 b2 q)) (val_main_v11 (F := Ideal) x0 x2 x3 x4 (ix3 b1 b2 q)) (x5 (ix1 q))) := by
  rw [val_main_v55_apply, val_main_call0_v4_apply, val_main_call0_v3_apply, val_main_cst_4_apply,
    val_main_call0_v2_apply, val_main_call0_v1_apply, val_main_call0_v0_apply, val_main_cst_3_apply, v54_at,
    Ideal.minimumf_def, Ideal.maximumf_def, Ideal.ofBits_def, Ideal.ofBits_def]
  rfl

end Integrals

/-- The reference's second result is the specification's integrals. -/
theorem ref_integrals (x0 : (⟨S2048x256x2, .f32⟩ : BufTy).Contents (Elt Ideal)) (x1 x2 : (⟨S2048x256x2x2, .f32⟩ : BufTy).Contents (Elt Ideal)) (x3 : (⟨S2048x256x2, .f32⟩ : BufTy).Contents (Elt Ideal)) (x4 : (⟨S2x49, .f32⟩ : BufTy).Contents (Elt Ideal)) (x5 : (⟨S49, .f32⟩ : BufTy).Contents (Elt Ideal)) :
    val_main_v55 (F := Ideal) x0 x1 x2 x3 x4 x5 = Cert.Spec.integrals x0 x1 x2 x3 x4 x5 := by
  funext j
  obtain ⟨b1, b2, rfl⟩ : ∃ (b1 : Fin 2048) (b2 : Fin 256), j = ix2 b1 b2 := ⟨j 0, j 1, eq_ix2 j⟩
  refine (v55_at x0 x1 x2 x3 x4 x5 b1 b2).trans ?_
  unfold Cert.Spec.integrals Cert.Spec.rowIntegral
  refine congrArg Cert.Spec.clip (Finset.sum_congr rfl fun q _ => ?_)
  rw [v9_at, v11_at]

end Cert.RefValue

end
-- ==== Proof.lean ====
/-
  A batch of 2048 × 256 planar normal densities, each integrated over a rotated and translated square by a 7 × 7
  Gauss–Legendre rule. For one pair (b1, b2), with rotation R, translation t, mean μ, covariance C, and quadrature
  points (e0 q, e1 q) with weights w q (q = 0 … 48):
      points    (b1, b2, q, i) = R(i,0) · e0 q + R(i,1) · e1 q + t i,
      integrals (b1, b2)       = clip₀¹ ∑ q, exp (−½ · Q q − log 2π − ½ · log det C) · w q,
  where Q q is the quadratic form of C⁻¹ (by the closed-form 2×2 inverse) at the point q less μ.

  The blocked program flattens the pairs to 524288 rows, works on 512 rows per grid point, and reshapes its two outputs
  back; the reference computes the points as a contraction over the two point coordinates, ∑ k, e(k, q) · R(i, k), plus
  t, and everything else on whole arrays. On the extended reals the two agree entry by entry: the contraction is the
  two-term sum with each product commuted, the reference's sum over q starts from the zero word, and every other
  operation — the quadratic form, the determinant, the division, exp, log, the three literals, the clip — is the same
  operation applied in the same order. No cancellation or distribution is used, so finiteness of the inputs is not needed.

  Both runs are stated with the same two functions of the argument arrays (`Cert.Spec.points`, `Cert.Spec.integrals`);
  the ideal pass rewrote nothing, so `preserves` is trivial; the frames of the two blocked programs are the generated
  ones and the reference's is its generated run with the results dropped.
-/
import proofs.«167904_j49100066128336_2_alg».proof.Defs
import proofs.«167904_j49100066128336_2_alg».proof.Proof.Gen.Kernel
import proofs.«167904_j49100066128336_2_alg».proof.Proof.Gen.Kernel.Skeleton
import proofs.«167904_j49100066128336_2_alg».proof.Proof.Gen.Kernel.Launch
import proofs.«167904_j49100066128336_2_alg».proof.Proof.Gen.Kernel.Points
import proofs.«167904_j49100066128336_2_alg».proof.Proof.Gen.Kernel.Frame
import proofs.«167904_j49100066128336_2_alg».proof.Proof.Gen.KernelIdeal
import proofs.«167904_j49100066128336_2_alg».proof.Proof.Gen.KernelIdeal.Skeleton
import proofs.«167904_j49100066128336_2_alg».proof.Proof.Gen.KernelIdeal.Launch
import proofs.«167904_j49100066128336_2_alg».proof.Proof.Gen.KernelIdeal.Points
import proofs.«167904_j49100066128336_2_alg».proof.Proof.Gen.KernelIdeal.Frame
import proofs.«167904_j49100066128336_2_alg».proof.Proof.Gen.ReferenceIdeal
import proofs.«167904_j49100066128336_2_alg».proof.Proof.Gen.ReferenceIdeal.Run
import proofs.«167904_j49100066128336_2_alg».proof.Proof.Gen.ReferenceIdeal.Read
import proofs.«167904_j49100066128336_2_alg».proof.Proof.Gen.Pre_finite_inputs
import proofs.«167904_j49100066128336_2_alg».proof.Proof.KernelRun
import proofs.«167904_j49100066128336_2_alg».proof.Proof.RefValue
import Idealize.ShloMosaic.Adequacy
import Idealize.ShloMosaic.Init

noncomputable section

namespace Cert.Proof

open Idealize.ShloMosaic Idealize.SL.Sem

/-- The blocked program runs and keeps its arguments. -/
theorem frame_kernel : Cert.frame_Kernel := fun m ρ _ => Cert.Kernel.Gen.frame m ρ

/-- So does it read at the exact instance. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten on the way to the exact instance. -/
theorem preserves : Cert.preserves_Kernel_KernelIdeal := trivial

/-- From memories agreeing on the arguments, both programs end with the points and the integrals of the arguments. -/
theorem algebraic : Cert.algebraic_KernelIdeal_ReferenceIdeal := by
  intro m ρ m' ρ' _ hagree
  refine ⟨_, _, Cert.KernelRun.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨?_, ?_, (h c).2.2⟩
  · refine (h c).1.trans ((Cert.ReferenceIdeal.Read.val_main_v4_eq _ _ _).trans ((Cert.RefValue.ref_points _ _ _).trans ?_))
    rw [a2, a3, a4]
  · refine (h c).2.1.trans ((Cert.ReferenceIdeal.Read.val_main_v55_eq _ _).trans ((Cert.RefValue.ref_integrals _ _ _ _ _ _).trans ?_))
    rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
